-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1 .f32 .bf16
  ∧ IdealRules.truncf_extf.Statement Cert.KernelIdeal.S4096x1 .f32 .bf16
  ∧ IdealRules.truncf_extf.Statement Cert.KernelIdeal.S1x4096 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096x1 : Shape := ⟨3, ![4, 4096, 1]⟩
abbrev S4x4096 : Shape := ⟨2, ![4, 4096]⟩
abbrev S4x1x4096 : Shape := ⟨3, ![4, 1, 4096]⟩
abbrev S4x1x1 : Shape := ⟨3, ![4, 1, 1]⟩
abbrev S1x4096x3 : Shape := ⟨3, ![1, 4096, 3]⟩
abbrev S1x4096x1 : Shape := ⟨3, ![1, 4096, 1]⟩
abbrev S1x1x4096 : Shape := ⟨3, ![1, 1, 4096]⟩
abbrev S1x1x1 : Shape := ⟨3, ![1, 1, 1]⟩
abbrev S4096x3 : Shape := ⟨2, ![4096, 3]⟩
abbrev S4096x1 : Shape := ⟨2, ![4096, 1]⟩
abbrev S1x4096 : Shape := ⟨2, ![1, 4096]⟩
abbrev S4096x9 : Shape := ⟨2, ![4096, 9]⟩
abbrev S3x4096 : Shape := ⟨2, ![3, 4096]⟩
abbrev S9x4096 : Shape := ⟨2, ![9, 4096]⟩
abbrev S1x1 : Shape := ⟨2, ![1, 1]⟩
abbrev S9x1024 : Shape := ⟨2, ![9, 1024]⟩
abbrev S4096x1024 : Shape := ⟨2, ![4096, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S4096 : Shape := ⟨1, ![4096]⟩
abbrev S_ : Shape := ⟨0, ![]⟩

abbrev nBuf : Space → Nat
  | .hbm => 21
  | .vmem => 20
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x4096x1, .f32⟩
  | .hbm, ⟨4, _⟩ => ⟨S4x4096x1, .f32⟩
  | .hbm, ⟨5, _⟩ => ⟨S4x4096x1, .f32⟩
  | .hbm, ⟨6, _⟩ => ⟨S4x4096, .f32⟩
  | .hbm, ⟨7, _⟩ => ⟨S4x1x4096, .f32⟩
  | .hbm, ⟨8, _⟩ => ⟨S4x4096x1, .f32⟩
  | .hbm, ⟨9, _⟩ => ⟨S4x4096, .f32⟩
  | .hbm, ⟨10, _⟩ => ⟨S4x1x4096, .f32⟩
  | .hbm, ⟨11, _⟩ => ⟨S4x4096x1, .f32⟩
  | .hbm, ⟨12, _⟩ => ⟨S4x4096, .f32⟩
  | .hbm, ⟨13, _⟩ => ⟨S4x1x4096, .f32⟩
  | .hbm, ⟨14, _⟩ => ⟨S4x4096x1, .f32⟩
  | .hbm, ⟨15, _⟩ => ⟨S4x1x4096, .f32⟩
  | .hbm, ⟨16, _⟩ => ⟨S4x1x1, .f32⟩
  | .hbm, ⟨17, _⟩ => ⟨S_, .f32⟩
  | .hbm, ⟨18, _⟩ => ⟨S_, .f32⟩
  | .hbm, ⟨19, _⟩ => ⟨S4x4096, .f32⟩
  | .hbm, ⟨20, _⟩ => ⟨S4x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x1, .f32⟩
  | .local _ .vmem, ⟨3, _⟩ => ⟨S1x4096x1, .f32⟩
  | .local _ .vmem, ⟨4, _⟩ => ⟨S1x4096x1, .f32⟩
  | .local _ .vmem, ⟨5, _⟩ => ⟨S1x4096x1, .f32⟩
  | .local _ .vmem, ⟨6, _⟩ => ⟨S1x4096x1, .f32⟩
  | .local _ .vmem, ⟨7, _⟩ => ⟨S1x4096x1, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x4096x1, .f32⟩
  | .local _ .vmem, ⟨15, _⟩ => ⟨S1x4096x1, .f32⟩
  | .local _ .vmem, ⟨16, _⟩ => ⟨S1x1x4096, .f32⟩
  | .local _ .vmem, ⟨17, _⟩ => ⟨S1x1x4096, .f32⟩
  | .local _ .vmem, ⟨18, _⟩ => ⟨S1x1x1, .f32⟩
  | .local _ .vmem, ⟨19, _⟩ => ⟨S1x1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v12_2 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S4x4096x3_S4x4096x1_0_0_0 : S4x4096x3.Slices ![0, 0, 0] S4x4096x1
  slices_S4x4096x3_S4x4096x1_0_0_1 : S4x4096x3.Slices ![0, 0, 1] S4x4096x1
  slices_S4x4096x3_S4x4096x1_0_0_2 : S4x4096x3.Slices ![0, 0, 2] S4x4096x1
  shapeCasts_S4x4096x1_S4x4096 : S4x4096x1.ShapeCasts S4x4096
  bcast_S4x4096_S4x1x4096_0_2 : S4x4096.BroadcastsInDim S4x1x4096 (![0, 2] : Fin 2 → Fin S4x1x4096.rank)
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  bitsLt_bf16_f32 : FTy.bits .bf16 < FTy.bits .f32
  concatenates_S4096x3_S4096x3_S4096x1_S4096x1_S4096x1_S4096x9_d1 : Shape.Concatenates [S4096x3, S4096x3, S4096x1, S4096x1, S4096x1] S4096x9 1
  concatenates_S1x4096_S1x4096_S1x4096_S1x4096_S1x4096_S1x4096_S3x4096_S9x4096_d0 : Shape.Concatenates [S1x4096, S1x4096, S1x4096, S1x4096, S1x4096, S1x4096, S3x4096] S9x4096 0
  slices_S9x4096_o0_0_S9x1024 : S9x4096.Slices ![0, 0] S9x1024
  reduces_S4096x1024_S1024 : S4096x1024.Reduces [0] S1024
  shapeCasts_S1024_S1x1024 : S1024.ShapeCasts S1x1024
  inb_S1x1x4096_S1x1x1024_0_0_0 : ∀ a, (![0, 0, 0] : Fin 3 → Nat) a + S1x1x1024.size a ≤ S1x1x4096.size a
  h_S1x1x1024 : 0 < S1x1x1024.numel
  shapeCasts_S1x1x1024_S1x1024 : S1x1x1024.ShapeCasts S1x1024
  shapeCasts_S1x1024_S1x1x1024 : S1x1024.ShapeCasts S1x1x1024
  reduces_S1x1024_S1 : S1x1024.Reduces [1] S1
  shapeCasts_S1_S1x1 : S1.ShapeCasts S1x1
  reduces_S4096x1024_S4096 : S4096x1024.Reduces [1] S4096
  shapeCasts_S4096_S4096x1 : S4096.ShapeCasts S4096x1
  slices_S9x4096_o0_1024_S9x1024 : S9x4096.Slices ![0, 1024] S9x1024
  inb_S1x1x4096_S1x1x1024_0_0_1024 : ∀ a, (![0, 0, 1024] : Fin 3 → Nat) a + S1x1x1024.size a ≤ S1x1x4096.size a
  slices_S9x4096_o0_2048_S9x1024 : S9x4096.Slices ![0, 2048] S9x1024
  inb_S1x1x4096_S1x1x1024_0_0_2048 : ∀ a, (![0, 0, 2048] : Fin 3 → Nat) a + S1x1x1024.size a ≤ S1x1x4096.size a
  slices_S9x4096_o0_3072_S9x1024 : S9x4096.Slices ![0, 3072] S9x1024
  inb_S1x1x4096_S1x1x1024_0_0_3072 : ∀ a, (![0, 0, 3072] : Fin 3 → Nat) a + S1x1x1024.size a ≤ S1x1x4096.size a
  shapeCasts_S4096x1_S1x4096x1 : S4096x1.ShapeCasts S1x4096x1
  reduces_S4096x1_S1 : S4096x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  shapeCasts_S4x1x4096_S4x4096 : S4x1x4096.ShapeCasts S4x4096
  dot_S4096x9_S9x1024_S4096x1024_1_0_0_1_n_n_wf : DotDims.WF S4096x9 S9x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S4x4096x1.size a
  hwx0_1 : ∀ i : grid0.Coords, EltTy.bits .f32 = 32 ∨ (Rect.block (s := S4x4096x1) S1x4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x4096x1.size a
  hwx0_2 : ∀ i : grid0.Coords, EltTy.bits .f32 = 32 ∨ (Rect.block (s := S4x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S4x4096x1.size a
  hwx0_3 : ∀ i : grid0.Coords, EltTy.bits .f32 = 32 ∨ (Rect.block (s := S4x4096x1) S1x4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S4x1x4096.size a
  hwx0_4 : ∀ i : grid0.Coords, EltTy.bits .f32 = 32 ∨ (Rect.block (s := S4x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S4x1x4096.size a
  hwx0_5 : ∀ i : grid0.Coords, EltTy.bits .f32 = 32 ∨ (Rect.block (s := S4x1x4096) S1x1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x4096.size a ≤ S4x1x4096.size a
  hwx0_6 : ∀ i : grid0.Coords, EltTy.bits .f32 = 32 ∨ (Rect.block (s := S4x1x4096) S1x1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x1.size a ≤ S4x4096x1.size a
  hwx0_7 : ∀ i : grid0.Coords, EltTy.bits .f32 = 32 ∨ (Rect.block (s := S4x4096x1) S1x4096x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x4096.size a ≤ S4x1x4096.size a
  hwx0_8 : ∀ i : grid0.Coords, EltTy.bits .f32 = 32 ∨ (Rect.block (s := S4x1x4096) S1x1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S4x1x1.size a
  hwx0_9 : ∀ i : grid0.Coords, EltTy.bits .f32 = 32 ∨ (Rect.block (s := S4x1x1) S1x1x1.size (cc0_transform_9 i) (hinb0_9 i)).WholeWords (EltTy.packing .f32)

variable [Facts₀]

def dot_S4096x9_S9x1024_S4096x1024_1_0_0_1_n_n : DotDims S4096x9 S9x1024 S4096x1024 where
  lhsContracting := [1]
  rhsContracting := [0]
  lhsNonContracting := [0]
  rhsNonContracting := [1]
  lhsBatch := []
  rhsBatch := []
  wf := dot_S4096x9_S9x1024_S4096x1024_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x4096x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x1x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibTileSum.lean ====
/-
  A finite sum cut into tiles of equal length: a sum over `K * n` consecutive terms is the sum, over the `n` tiles,
  of each tile's `K` terms; for a sum indexed by `Fin N` with `N = K * n`, term `d` of tile `s` is the term at
  position `K * s + d`.
-/
import Mathlib.Algebra.BigOperators.Fin

namespace Cert.TileSum

open Finset

/-- A sum over the first `K * n` naturals is the sum over `n` tiles of `K` consecutive terms each. -/
theorem sum_range_tiles {M : Type*} [AddCommMonoid M] (g : ℕ → M) (K : ℕ) : ∀ n : ℕ,
    ∑ k ∈ range (K * n), g k = ∑ s ∈ range n, ∑ d ∈ range K, g (K * s + d)
  | 0 => by simp
  | n + 1 => by rw [Nat.mul_succ, sum_range_add, sum_range_tiles g K n, sum_range_succ]

/-- A sum over `Fin N`, `N = K * n`, is the sum over `n` tiles of the `K` terms at positions `K * s + d` (each
    position is below `N`; the other branch is never taken). -/
theorem sum_fin_tiles {M : Type*} [AddCommMonoid M] (K n N : ℕ) (hN : N = K * n) (f : Fin N → M) :
    ∑ i : Fin N, f i
      = ∑ s ∈ range n, ∑ d : Fin K, (if h : K * s + d.val < N then f ⟨K * s + d.val, h⟩ else 0) := by
  have e : ∑ i : Fin N, f i = ∑ k ∈ range N, (if h : k < N then f ⟨k, h⟩ else 0) := by
    rw [sum_range]
    exact Fintype.sum_congr _ _ fun i => by rw [dif_pos i.isLt]
  rw [e]
  subst hN
  rw [sum_range_tiles]
  refine sum_congr rfl fun s _ => ?_
  rw [sum_range]

end Cert.TileSum
-- ==== Proof.Laws.lean ====
/-
  The laws on the extended reals that join a chunked, matrix-unit evaluation of nearest-neighbour squared
  distances to the textbook one. Nothing here mentions a program.

  * Clamping at zero commutes with a minimum over a finite family (`clamp_inf`), because `max · 0` is monotone
    on a linear order; the minimum over an empty family, `⊤`, is fixed by the clamp.
  * The minimum over 4096 columns is the minimum of the minima over four runs of 1024 columns (`inf_chunks`);
    the sum over them is the sum of the four runs' sums (`sum_chunks`).
  * For REAL coordinates the nine-term contraction
      (−2x₀)y₀ + (−2x₁)y₁ + (−2x₂)y₂ + 1·s₂ + 1·(s₂−s₂) + 1·((s₂−s₂)−(s₂−s₂)) + s₁·1 + (s₁−s₁)·1 + ((s₁−s₁)−(s₁−s₁))·1
    is (|x|² + |y|²) − 2⟨x,y⟩ (`nine_terms`): the residual terms s−s vanish because s is real — on the extended
    reals ∞ − ∞ is not 0, which is where finiteness of the inputs is used.
  * Scaling each batch's two sums by 1/16384 and adding up the batches is dividing the two grand totals by 16384
    (`mean_law`): distributivity, valid because every summand is real.
-/
import Idealize.ShloMosaic.PureOps.Ideal.Laws
import proofs.«174645_g31980326486603_cont_9to1_2083_17_alg».proof.Proof.LibTileSum

noncomputable section

namespace Cert.Chamfer

open Finset Idealize.ShloMosaic

/-- Column `o + j` of a row of 4096 entries: entry `j` of the run of 1024 columns that starts at `o`. -/
def at4096 (o : ℕ) (ho : o + 1024 ≤ 4096) (j : Fin 1024) : Fin 4096 := ⟨o + j.val, by have := j.isLt; omega⟩

/-- Clamping a minimum at zero is the minimum of the clamped terms. -/
theorem clamp_inf {ι : Type*} (s : Finset ι) (f : ι → EReal) :
    max (s.inf f) 0 = s.inf fun i => max (f i) 0 := by
  refine eq_of_forall_le_iff fun c => ?_
  simp only [le_max_iff, Finset.le_inf_iff]
  by_cases hc : c ≤ 0
  · simp [hc]
  · simp [hc]

/-- The minimum over all 4096 columns is the minimum of the four runs' minima. -/
theorem inf_chunks (g : Fin 4096 → EReal) :
    min (min (min (univ.inf fun j => g (at4096 0 (by norm_num) j)) (univ.inf fun j => g (at4096 1024 (by norm_num) j)))
        (univ.inf fun j => g (at4096 2048 (by norm_num) j))) (univ.inf fun j => g (at4096 3072 (by norm_num) j))
      = univ.inf g := by
  refine eq_of_forall_le_iff fun c => ?_
  simp only [le_min_iff, Finset.le_inf_iff, Finset.mem_univ, forall_true_left]
  constructor
  · rintro ⟨⟨⟨h0, h1⟩, h2⟩, h3⟩ m
    have hm := m.isLt
    by_cases c1 : m.val < 1024
    · have e : m = at4096 0 (by norm_num) ⟨m.val, c1⟩ := Fin.ext (by show m.val = 0 + m.val; omega)
      rw [e]; exact h0 _
    by_cases c2 : m.val < 2048
    · have e : m = at4096 1024 (by norm_num) ⟨m.val - 1024, by omega⟩ :=
        Fin.ext (by show m.val = 1024 + (m.val - 1024); omega)
      rw [e]; exact h1 _
    by_cases c3 : m.val < 3072
    · have e : m = at4096 2048 (by norm_num) ⟨m.val - 2048, by omega⟩ :=
        Fin.ext (by show m.val = 2048 + (m.val - 2048); omega)
      rw [e]; exact h2 _
    · have e : m = at4096 3072 (by norm_num) ⟨m.val - 3072, by omega⟩ :=
        Fin.ext (by show m.val = 3072 + (m.val - 3072); omega)
      rw [e]; exact h3 _
  · intro h
    exact ⟨⟨⟨fun j => h _, fun j => h _⟩, fun j => h _⟩, fun j => h _⟩

/-- The sum over all 4096 columns is the sum of the four runs' sums. -/
theorem sum_chunks {M : Type*} [AddCommMonoid M] (f : Fin 4096 → M) :
    ∑ m, f m = (((∑ j, f (at4096 0 (by norm_num) j)) + ∑ j, f (at4096 1024 (by norm_num) j))
      + ∑ j, f (at4096 2048 (by norm_num) j)) + ∑ j, f (at4096 3072 (by norm_num) j) := by
  rw [Cert.TileSum.sum_fin_tiles 1024 4 4096 rfl f]
  simp only [Finset.sum_range_succ, Finset.sum_range_zero, zero_add]
  refine congrArg₂ (· + ·) (congrArg₂ (· + ·) (congrArg₂ (· + ·) ?_ ?_) ?_) ?_
  all_goals
    refine Finset.sum_congr rfl fun d _ => ?_
    rw [dif_pos (by have := d.isLt; omega)]
    exact congrArg f (Fin.ext (by simp [at4096]))

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `n` of the left operand of the contraction: the point's coordinates times `m2`, three `one`s, and the
    squared norm `s` with its two residuals. -/
def lrow (x0 x1 x2 s m2 one : EReal) : Fin 9 → EReal :=
  ![x0 * m2, x1 * m2, x2 * m2, one, one, one, s, s - s, (s - s) - (s - s)]

/-- Column `m` of the right operand: the point's coordinates, its squared norm `s` with its two residuals, three `one`s. -/
def rcol (y0 y1 y2 s one : EReal) : Fin 9 → EReal :=
  ![y0, y1, y2, s, s - s, (s - s) - (s - s), one, one, one]

/-- A squared norm as the kernel adds it up. -/
def sq3 (a0 a1 a2 : EReal) : EReal := (a0 * a0 + a1 * a1) + a2 * a2

/-- The squared distance as the reference spells it: (|x|² + |y|²) − 2⟨x,y⟩, each norm a sum from zero. -/
def refDist (x y : Fin 3 → EReal) (two : EReal) : EReal :=
  ((0 + ∑ k, x k * x k) + (0 + ∑ k, y k * y k)) - two * ∑ k, x k * y k

/-- For real coordinates the nine-term contraction is the squared distance. -/
theorem nine_terms (x y : Fin 3 → ℝ) :
    ∑ k : Fin 9, lrow (x 0) (x 1) (x 2) (sq3 (x 0) (x 1) (x 2)) ((-2 : ℝ) : EReal) ((1 : ℝ) : EReal) k
        * rcol (y 0) (y 1) (y 2) (sq3 (y 0) (y 1) (y 2)) ((1 : ℝ) : EReal) k
      = refDist (fun k => (x k : EReal)) (fun k => (y k : EReal)) ((2 : ℝ) : EReal) := by
  unfold refDist
  rw [Fin.sum_univ_three, Fin.sum_univ_three, Fin.sum_univ_three]
  simp only [Fin.sum_univ_succ, Fin.sum_univ_zero, lrow, rcol, sq3, Matrix.cons_val_zero,
    Matrix.cons_val_succ, Matrix.cons_val_one, Matrix.head_cons, add_zero]
  norm_cast
  push_cast
  ring

/-- A running minimum started at `⊤` is the infimum. -/
theorem fold_min_top {ι : Type*} (s : Finset ι) (f : ι → EReal) : s.fold min ⊤ f = s.inf f := by
  classical
  induction s using Finset.induction_on with
  | empty => simp
  | insert a s ha ih =>
    rw [Finset.fold_insert ha, ih, Finset.inf_insert]

/-! ## What one grid point computes, over plain functions

`X n k` is coordinate `k` of the first cloud's point `n`; `c0 c1 c2` are the same three coordinates as columns and
`r0 r1 r2` the second cloud's coordinates as rows; `m2`, `one`, `zero`, `s` stand for the constants −2, 1, 0 and the
scale. -/

section Spec

variable (X : Fin 4096 → Fin 3 → EReal) (c0 c1 c2 r0 r1 r2 : Fin 4096 → EReal) (m2 one zero s : EReal)

/-- Entry (n, m) of the product of the two nine-wide operands. -/
def dK (n m : Fin 4096) : EReal :=
  ∑ k : Fin 9, lrow (X n 0) (X n 1) (X n 2) (sq3 (c0 n) (c1 n) (c2 n)) m2 one k
    * rcol (r0 m) (r1 m) (r2 m) (sq3 (r0 m) (r1 m) (r2 m)) one k

/-- Point `n`'s nearest squared distance: the four runs' row minima combined, then clamped. -/
def rowMinK (n : Fin 4096) : EReal :=
  max (min (min (min (univ.inf fun j => dK X c0 c1 c2 r0 r1 r2 m2 one n (at4096 0 (by norm_num) j))
        (univ.inf fun j => dK X c0 c1 c2 r0 r1 r2 m2 one n (at4096 1024 (by norm_num) j)))
      (univ.inf fun j => dK X c0 c1 c2 r0 r1 r2 m2 one n (at4096 2048 (by norm_num) j)))
    (univ.inf fun j => dK X c0 c1 c2 r0 r1 r2 m2 one n (at4096 3072 (by norm_num) j))) zero

/-- Point `m` of the second cloud: the column minimum, clamped. -/
def colMinK (m : Fin 4096) : EReal := max (univ.inf fun n => dK X c0 c1 c2 r0 r1 r2 m2 one n m) zero

/-- The grid point's share of the mean. -/
def partK : EReal :=
  (∑ n, rowMinK X c0 c1 c2 r0 r1 r2 m2 one zero n) * s
    + ((((zero + ∑ j, colMinK X c0 c1 c2 r0 r1 r2 m2 one zero (at4096 0 (by norm_num) j))
          + ∑ j, colMinK X c0 c1 c2 r0 r1 r2 m2 one zero (at4096 1024 (by norm_num) j))
        + ∑ j, colMinK X c0 c1 c2 r0 r1 r2 m2 one zero (at4096 2048 (by norm_num) j))
      + ∑ j, colMinK X c0 c1 c2 r0 r1 r2 m2 one zero (at4096 3072 (by norm_num) j)) * s

end Spec

/-- With real coordinates, the columns and rows being those coordinates, the product's entry is the squared distance. -/
theorem dK_real (x y : Fin 4096 → Fin 3 → ℝ) (n m : Fin 4096) :
    dK (fun n k => (x n k : EReal)) (fun n => (x n 0 : EReal)) (fun n => (x n 1 : EReal)) (fun n => (x n 2 : EReal))
        (fun m => (y m 0 : EReal)) (fun m => (y m 1 : EReal)) (fun m => (y m 2 : EReal)) ((-2 : ℝ) : EReal) ((1 : ℝ) : EReal) n m
      = refDist (fun k => (x n k : EReal)) (fun k => (y m k : EReal)) ((2 : ℝ) : EReal) :=
  nine_terms (x n) (y m)

/-- The clamped combination of the four runs' row minima is the minimum over all columns of the clamped entries. -/
theorem rowMinK_eq (X : Fin 4096 → Fin 3 → EReal) (c0 c1 c2 r0 r1 r2 : Fin 4096 → EReal) (m2 one : EReal) (n : Fin 4096) :
    rowMinK X c0 c1 c2 r0 r1 r2 m2 one 0 n = univ.inf fun m => max (dK X c0 c1 c2 r0 r1 r2 m2 one n m) 0 := by
  unfold rowMinK
  rw [inf_chunks (fun m => dK X c0 c1 c2 r0 r1 r2 m2 one n m), clamp_inf]

/-- The clamped column minimum is the minimum over all rows of the clamped entries. -/
theorem colMinK_eq (X : Fin 4096 → Fin 3 → EReal) (c0 c1 c2 r0 r1 r2 : Fin 4096 → EReal) (m2 one : EReal) (m : Fin 4096) :
    colMinK X c0 c1 c2 r0 r1 r2 m2 one 0 m = univ.inf fun n => max (dK X c0 c1 c2 r0 r1 r2 m2 one n m) 0 := by
  unfold colMinK
  rw [clamp_inf]

/-- Scaling each batch's two sums and adding the batches up is dividing the two grand totals: for real summands. -/
theorem mean_law (R C : Fin 4 → Fin 4096 → ℝ) :
    (0 : EReal) + ∑ b : Fin 4, ((∑ n, (R b n : EReal)) * (((1 : ℝ) / 16384 : ℝ) : EReal)
        + (((((0 : EReal) + ∑ j, (C b (at4096 0 (by norm_num) j) : EReal))
              + ∑ j, (C b (at4096 1024 (by norm_num) j) : EReal))
            + ∑ j, (C b (at4096 2048 (by norm_num) j) : EReal))
          + ∑ j, (C b (at4096 3072 (by norm_num) j) : EReal)) * (((1 : ℝ) / 16384 : ℝ) : EReal))
      = Ideal.div (0 + ∑ b : Fin 4, ∑ n, (R b n : EReal)) ((16384 : ℝ) : EReal)
        + Ideal.div (0 + ∑ b : Fin 4, ∑ n, (C b n : EReal)) ((16384 : ℝ) : EReal) := by
  have key : ∀ b : Fin 4, ((((0 : EReal) + ∑ j, (C b (at4096 0 (by norm_num) j) : EReal))
              + ∑ j, (C b (at4096 1024 (by norm_num) j) : EReal))
            + ∑ j, (C b (at4096 2048 (by norm_num) j) : EReal))
          + ∑ j, (C b (at4096 3072 (by norm_num) j) : EReal) = ∑ m, (C b m : EReal) := fun b => by
    rw [zero_add]; exact (sum_chunks fun m => (C b m : EReal)).symm
  simp only [key]
  rw [Ideal.div_coe (by norm_num : (16384 : ℝ) ≠ 0), Ideal.div_coe (by norm_num : (16384 : ℝ) ≠ 0)]
  simp only [zero_add, ← coe_sum, ← EReal.coe_mul, ← EReal.coe_add]
  refine congrArg _ ?_
  rw [Finset.sum_add_distrib, Finset.sum_mul, Finset.sum_mul]

end Cert.Chamfer

end
-- ==== Proof.Words.lean ====
/-
  The float words the two programs use, read as extended reals: +∞, 1, −2, 2, 2⁻¹⁴ = 1/16384 and 2¹⁴ = 16384.
  Each is an exact binary value, so no constant is named: the kernel's scale 2⁻¹⁴ IS the reciprocal of the
  reference's divisor 16384.
-/
import Idealize.ShloMosaic.PureOps.Ideal.Laws

noncomputable section

namespace Cert.Chamfer

open Idealize.ShloMosaic

theorem word_inf : Ideal.ofBits .f32 0x7F800000#32 = ⊤ := by simp [Ideal.ofBits, Ideal.ieee]
theorem word_one : Ideal.ofBits .f32 0x3F800000#32 = ((1 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_scale : Ideal.ofBits .f32 0x38800000#32 = (((1 : ℝ) / 16384 : ℝ) : EReal) := by
  simp [Ideal.ofBits, Ideal.ieee, -EReal.coe_mul]; norm_num
theorem word_16384 : Ideal.ofBits .f32 0x46800000#32 = ((16384 : ℝ) : EReal) := by
  simp [Ideal.ofBits, Ideal.ieee, -EReal.coe_mul]; norm_num

end Cert.Chamfer

end
-- ==== Proof.Reads.lean ====
/-
  The kernel body's non-pointwise operations read at an index, at the exact values, over the literal shapes of
  one grid point: a 4096×1024 tile's column minima and row minima as infima; a row's and a column's sum; the
  casts that add or drop unit axes (the row-major position does not move); one 1024-column run of the product
  of the nine-wide operands as a nine-term sum; and the two operands themselves, entry by entry — the left one's
  row is the point's coordinates times −2, three ones, and the squared norm with its two residuals; the right
  one's column the other point's coordinates, its squared norm with its two residuals, and three ones.
-/
import proofs.«174645_g31980326486603_cont_9to1_2083_17_alg».proof.Proof.Gen.KernelIdeal.Skeleton
import proofs.«174645_g31980326486603_cont_9to1_2083_17_alg».proof.Proof.LibMatmul
import proofs.«174645_g31980326486603_cont_9to1_2083_17_alg».proof.Proof.LibColumns
import proofs.«174645_g31980326486603_cont_9to1_2083_17_alg».proof.Proof.Laws
import proofs.«174645_g31980326486603_cont_9to1_2083_17_alg».proof.Proof.Words
import Idealize.ShloMosaic.Lib.Pipeline.Value
import Idealize.ShloMosaic.Lib.ValueIdx
import Idealize.ShloMosaic.PureOps.Ideal.Laws

noncomputable section

namespace Cert.Chamfer

open Finset Idealize.ShloMosaic Idealize.ShloMosaic.ValueIdx Cert.KernelIdeal Cert.KernelIdeal.Gen

/-! ## Reductions along one axis -/

/-- A minimum-reduction over one axis is the running minimum, from the accumulator's value, over that axis's
    coordinates. -/
theorem minReduce_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Column `j` of a 4096×1024 tile: its minimum from +∞ is the infimum of the column. -/
theorem colmin_apply (M : FVec Ideal S4096x1024 .f32) (hφ : FKind.Formats .f32)
    (hacc : (0x7F800000#32 : BitVec FTy.f32.bits) = FKind.minimumf.neutral .f32 hφ) (j : Fin 1024) :
    multiReduction .minimumf [0] S1024 M 0x7F800000#32 Facts₀.reduces_S4096x1024_S1024 hφ hacc (ix1 j)
      = univ.inf fun n : Fin 4096 => M (ix2 n j) := by
  refine (minReduce_single M _ Facts₀.reduces_S4096x1024_S1024 hφ hacc (ix1 j)).trans ?_
  rw [Ideal.ofBits_def, word_inf, fold_min_top]
  refine congrArg (Finset.inf Finset.univ) (funext fun n => ?_)
  exact congrArg M (funext fun ax => Fin.ext (by match ax with | ⟨0, _⟩ => rfl | ⟨1, _⟩ => rfl))

/-- Row `n` of a 4096×1024 tile: its minimum from +∞ is the infimum of the row. -/
theorem rowmin_apply (M : FVec Ideal S4096x1024 .f32) (hφ : FKind.Formats .f32)
    (hacc : (0x7F800000#32 : BitVec FTy.f32.bits) = FKind.minimumf.neutral .f32 hφ) (n : Fin 4096) :
    multiReduction .minimumf [1] S4096 M 0x7F800000#32 Facts₀.reduces_S4096x1024_S4096 hφ hacc (ix1 n)
      = univ.inf fun j : Fin 1024 => M (ix2 n j) := by
  refine (minReduce_single M _ Facts₀.reduces_S4096x1024_S4096 hφ hacc (ix1 n)).trans ?_
  rw [Ideal.ofBits_def, word_inf, fold_min_top]
  refine congrArg (Finset.inf Finset.univ) (funext fun j => ?_)
  exact congrArg M (Cert.Columns.lift_row Facts₀.reduces_S4096x1024_S4096 n j)

/-- The sum of a 1×1024 row. -/
theorem rowsum_apply (v : FVec Ideal S1x1024 .f32) (hφ : FKind.Formats .f32)
    (hacc : (0x00000000#32 : BitVec FTy.f32.bits) = FKind.add.neutral .f32 hφ) :
    multiReduction .add [1] S1 v 0x00000000#32 Facts₀.reduces_S1x1024_S1 hφ hacc (ix1 (0 : Fin 1))
      = ∑ j : Fin 1024, v (ix2 (0 : Fin 1) j) := by
  refine (Ideal.multiReduction_add_single v _ Facts₀.reduces_S1x1024_S1 hφ hacc (ix1 0)).trans ?_
  refine Finset.sum_congr rfl fun j _ => ?_
  exact congrArg v (Cert.Columns.lift_row Facts₀.reduces_S1x1024_S1 0 j)

/-- The sum of a 4096×1 column. -/
theorem colsum_apply (v : FVec Ideal S4096x1 .f32) (hφ : FKind.Formats .f32)
    (hacc : (0x00000000#32 : BitVec FTy.f32.bits) = FKind.add.neutral .f32 hφ) :
    multiReduction .add [0] S1 v 0x00000000#32 Facts₀.reduces_S4096x1_S1 hφ hacc (ix1 (0 : Fin 1))
      = ∑ n : Fin 4096, v (ix2 n (0 : Fin 1)) := by
  refine (Ideal.multiReduction_add_single v _ Facts₀.reduces_S4096x1_S1 hφ hacc (ix1 0)).trans ?_
  refine Finset.sum_congr rfl fun n _ => ?_
  exact congrArg v (funext fun ax => Fin.ext (by match ax with | ⟨0, _⟩ => rfl | ⟨1, _⟩ => rfl))

/-! ## Casts that add or drop unit axes -/

section Casts
variable {α : Type}

theorem cast_1x4096x3 (v : S1x4096x3.Idx → α) (h : S1x4096x3.ShapeCasts S4096x3) (n : Fin 4096) (d : Fin 3) :
    shapeCast S4096x3 v h (ix2 n d) = v (ix3 (0 : Fin 1) n d) :=
  shapeCast_apply v h _ _ (by
    rw [Shape.rowMajor_val_three, Shape.rowMajor_val_two]
    show (0 * 4096 + n.val) * 3 + d.val = n.val * 3 + d.val; omega)

theorem cast_1x4096x1 (v : S1x4096x1.Idx → α) (h : S1x4096x1.ShapeCasts S4096x1) (n : Fin 4096) :
    shapeCast S4096x1 v h (ix2 n (0 : Fin 1)) = v (ix3 (0 : Fin 1) n (0 : Fin 1)) :=
  shapeCast_apply v h _ _ (by
    rw [Shape.rowMajor_val_three, Shape.rowMajor_val_two]
    show (0 * 4096 + n.val) * 1 + 0 = n.val * 1 + 0; omega)

theorem cast_1x1x4096 (v : S1x1x4096.Idx → α) (h : S1x1x4096.ShapeCasts S1x4096) (m : Fin 4096) :
    shapeCast S1x4096 v h (ix2 (0 : Fin 1) m) = v (ix3 (0 : Fin 1) (0 : Fin 1) m) :=
  shapeCast_apply v h _ _ (by
    rw [Shape.rowMajor_val_three, Shape.rowMajor_val_two]
    show (0 * 1 + 0) * 4096 + m.val = 0 * 4096 + m.val; omega)

theorem cast_1024_row (v : S1024.Idx → α) (h : S1024.ShapeCasts S1x1024) (j : Fin 1024) :
    shapeCast S1x1024 v h (ix2 (0 : Fin 1) j) = v (ix1 j) :=
  shapeCast_apply v h _ _ (by
    rw [Shape.rowMajor_val_one, Shape.rowMajor_val_two]
    show j.val = 0 * 1024 + j.val; omega)

theorem cast_1x1024_block (v : S1x1024.Idx → α) (h : S1x1024.ShapeCasts S1x1x1024) (j : Fin 1024) :
    shapeCast S1x1x1024 v h (ix3 (0 : Fin 1) (0 : Fin 1) j) = v (ix2 (0 : Fin 1) j) :=
  shapeCast_apply v h _ _ (by
    rw [Shape.rowMajor_val_two, Shape.rowMajor_val_three]
    show 0 * 1024 + j.val = (0 * 1 + 0) * 1024 + j.val; omega)

theorem cast_4096x1_block (v : S4096x1.Idx → α) (h : S4096x1.ShapeCasts S1x4096x1) (n : Fin 4096) :
    shapeCast S1x4096x1 v h (ix3 (0 : Fin 1) n (0 : Fin 1)) = v (ix2 n (0 : Fin 1)) :=
  shapeCast_apply v h _ _ (by
    rw [Shape.rowMajor_val_two, Shape.rowMajor_val_three]
    show n.val * 1 + 0 = (0 * 4096 + n.val) * 1 + 0; omega)

theorem cast_1_1x1 (v : S1.Idx → α) (h : S1.ShapeCasts S1x1) :
    shapeCast S1x1 v h (ix2 (0 : Fin 1) (0 : Fin 1)) = v (ix1 (0 : Fin 1)) :=
  shapeCast_apply v h _ _ (by
    rw [Shape.rowMajor_val_one, Shape.rowMajor_val_two]
    show 0 = 0 * 1 + 0; omega)

theorem cast_1x1_block (v : S1x1.Idx → α) (h : S1x1.ShapeCasts S1x1x1) :
    shapeCast S1x1x1 v h (ix3 (0 : Fin 1) (0 : Fin 1) (0 : Fin 1)) = v (ix2 (0 : Fin 1) (0 : Fin 1)) :=
  shapeCast_apply v h _ _ (by
    rw [Shape.rowMajor_val_two, Shape.rowMajor_val_three]
    show 0 * 1 + 0 = (0 * 1 + 0) * 1 + 0; omega)

end Casts

/-! ## One run of 1024 columns of the product -/

/-- Entry (n, j) of the left operand times columns `o … o+1023` of the right operand, into zero: the nine-term sum
    over the contraction position. -/
theorem chunk_apply (A : FVec Ideal S4096x9 .bf16) (B : FVec Ideal S9x4096 .bf16) (o : ℕ) (ho : o + 1024 ≤ 4096)
    (hs : S9x4096.Slices ![0, o] S9x1024) (n : Fin 4096) (j : Fin 1024) :
    matmul dot_S4096x9_S9x1024_S4096x1024_1_0_0_1_n_n none A (extractStridedSlice S9x1024 ![0, o] B hs)
        (constant S4096x1024 .f32 0x00000000#32) (ix2 n j)
      = ∑ k : Fin 9, A (ix2 n k) * B (ix2 k (at4096 o ho j)) := by
  refine (Cert.PlainDot.matmul_zero_apply dot_S4096x9_S9x1024_S4096x1024_1_0_0_1_n_n none rfl rfl
    (fun i q => by
      unfold DotDims.lhsIdx
      rw [dif_neg (show ¬(0 : Fin S4096x9.rank) ∈ dot_S4096x9_S9x1024_S4096x1024_1_0_0_1_n_n.lhsBatch by decide),
        dif_pos (show (0 : Fin S4096x9.rank) ∈ dot_S4096x9_S9x1024_S4096x1024_1_0_0_1_n_n.lhsNonContracting by decide)]
      rfl)
    (fun i q => dot_S4096x9_S9x1024_S4096x1024_1_0_0_1_n_n.lhsIdx_val_of_single rfl i q)
    (fun i q => dot_S4096x9_S9x1024_S4096x1024_1_0_0_1_n_n.rhsIdx_val_of_single rfl i q)
    (fun i q => by
      unfold DotDims.rhsIdx
      rw [dif_neg (show ¬(1 : Fin S9x1024.rank) ∈ dot_S4096x9_S9x1024_S4096x1024_1_0_0_1_n_n.rhsBatch by decide),
        dif_pos (show (1 : Fin S9x1024.rank) ∈ dot_S4096x9_S9x1024_S4096x1024_1_0_0_1_n_n.rhsNonContracting by decide)]
      rfl)
    A _ n j).trans ?_
  refine Finset.sum_congr rfl fun k _ => congrArg (A (ix2 n k) * ·) ?_
  exact extractStridedSlice_apply _ B hs (ix2 k j) (ix2 k (at4096 o ho j)) (fun a => by
    match a with
    | ⟨0, _⟩ => show k.val = 0 + k.val; omega
    | ⟨1, _⟩ => rfl)

end Cert.Chamfer

end
-- ==== Proof.Operands.lean ====
/-
  The two nine-wide operands of the kernel's product read entry by entry: row `n` of the left one is the point's
  three coordinates times −2, three ones, and the three squared-norm columns; column `m` of the right one is the
  three coordinate rows, the three squared-norm rows, and three ones. Each entry is the piece of the
  concatenation whose span holds its position.
-/
import proofs.«174645_g31980326486603_cont_9to1_2083_17_alg».proof.Proof.Reads

noncomputable section

namespace Cert.Chamfer

open Finset Idealize.ShloMosaic Idealize.ShloMosaic.ValueIdx Cert.KernelIdeal Cert.KernelIdeal.Gen

/-- The constants of the body, as extended reals. -/
abbrev wm2 : EReal := Ideal.ofBits .f32 0xC0000000#32
abbrev wone : EReal := Ideal.ofBits .f32 0x3F800000#32
abbrev wzero : EReal := Ideal.ofBits .f32 0x00000000#32
abbrev wscale : EReal := Ideal.ofBits .f32 0x38800000#32

/-! ## The two operands -/

/-- Row `n` of the left operand: three scaled coordinates, three ones, and the three squared-norm columns. -/
theorem pay14_apply (v1 : FVec Ideal S4096x3 .f32) (v25 v28 v30 : FVec Ideal S4096x1 .f32) (n : Fin 4096) (k : Fin 9) :
    k0_pay14 v1 v25 v28 v30 (ix2 n k)
      = ![v1 (ix2 n (0 : Fin 3)) * wm2, v1 (ix2 n (1 : Fin 3)) * wm2, v1 (ix2 n (2 : Fin 3)) * wm2, wone, wone, wone,
          v25 (ix2 n (0 : Fin 1)), v28 (ix2 n (0 : Fin 1)), v30 (ix2 n (0 : Fin 1))] k := by
  have key : ∀ q : Fin 9, k0_pay14 v1 v25 v28 v30 (ix2 n q)
      = concatenate S4096x9 1 [⟨S4096x3, mulf v1 (broadcast S4096x3 (Scalar.ofBits .f32 0xC0000000#32))⟩,
          ⟨S4096x3, broadcast S4096x3 (Scalar.ofBits .f32 0x3F800000#32)⟩, ⟨S4096x1, v25⟩, ⟨S4096x1, v28⟩, ⟨S4096x1, v30⟩]
        Facts₀.concatenates_S4096x3_S4096x3_S4096x1_S4096x1_S4096x1_S4096x9_d1 (ix2 n q) := fun q => rfl
  rw [key]
  match k with
  | ⟨0, _⟩ => exact Eq.trans (concatenate_apply_piece _ _ _ _ 0 (by simp) S4096x3 _ (by rfl) (by rfl) 0 (by rfl) (ix2 n (0 : Fin 3))
      (fun b hb => by match b, hb with | ⟨0, _⟩, _ => rfl | ⟨1, _⟩, hb => exact absurd rfl hb) (by rfl)) (by rfl)
  | ⟨1, _⟩ => exact Eq.trans (concatenate_apply_piece _ _ _ _ 0 (by simp) S4096x3 _ (by rfl) (by rfl) 0 (by rfl) (ix2 n (1 : Fin 3))
      (fun b hb => by match b, hb with | ⟨0, _⟩, _ => rfl | ⟨1, _⟩, hb => exact absurd rfl hb) (by rfl)) (by rfl)
  | ⟨2, _⟩ => exact Eq.trans (concatenate_apply_piece _ _ _ _ 0 (by simp) S4096x3 _ (by rfl) (by rfl) 0 (by rfl) (ix2 n (2 : Fin 3))
      (fun b hb => by match b, hb with | ⟨0, _⟩, _ => rfl | ⟨1, _⟩, hb => exact absurd rfl hb) (by rfl)) (by rfl)
  | ⟨3, _⟩ => exact Eq.trans (concatenate_apply_piece _ _ _ _ 1 (by simp) S4096x3 _ (by rfl) (by rfl) 3 (by rfl) (ix2 n (0 : Fin 3))
      (fun b hb => by match b, hb with | ⟨0, _⟩, _ => rfl | ⟨1, _⟩, hb => exact absurd rfl hb) (by rfl)) (by rfl)
  | ⟨4, _⟩ => exact Eq.trans (concatenate_apply_piece _ _ _ _ 1 (by simp) S4096x3 _ (by rfl) (by rfl) 3 (by rfl) (ix2 n (1 : Fin 3))
      (fun b hb => by match b, hb with | ⟨0, _⟩, _ => rfl | ⟨1, _⟩, hb => exact absurd rfl hb) (by rfl)) (by rfl)
  | ⟨5, _⟩ => exact Eq.trans (concatenate_apply_piece _ _ _ _ 1 (by simp) S4096x3 _ (by rfl) (by rfl) 3 (by rfl) (ix2 n (2 : Fin 3))
      (fun b hb => by match b, hb with | ⟨0, _⟩, _ => rfl | ⟨1, _⟩, hb => exact absurd rfl hb) (by rfl)) (by rfl)
  | ⟨6, _⟩ => exact Eq.trans (concatenate_apply_piece _ _ _ _ 2 (by simp) S4096x1 _ (by rfl) (by rfl) 6 (by rfl) (ix2 n (0 : Fin 1))
      (fun b hb => by match b, hb with | ⟨0, _⟩, _ => rfl | ⟨1, _⟩, hb => exact absurd rfl hb) (by rfl)) (by rfl)
  | ⟨7, _⟩ => exact Eq.trans (concatenate_apply_piece _ _ _ _ 3 (by simp) S4096x1 _ (by rfl) (by rfl) 7 (by rfl) (ix2 n (0 : Fin 1))
      (fun b hb => by match b, hb with | ⟨0, _⟩, _ => rfl | ⟨1, _⟩, hb => exact absurd rfl hb) (by rfl)) (by rfl)
  | ⟨8, _⟩ => exact Eq.trans (concatenate_apply_piece _ _ _ _ 4 (by simp) S4096x1 _ (by rfl) (by rfl) 8 (by rfl) (ix2 n (0 : Fin 1))
      (fun b hb => by match b, hb with | ⟨0, _⟩, _ => rfl | ⟨1, _⟩, hb => exact absurd rfl hb) (by rfl)) (by rfl)

/-- Column `m` of the right operand: the three coordinate rows, the three squared-norm rows, three ones. -/
theorem pay15_apply (v9 v11 v13 v32 v35 v37 : FVec Ideal S1x4096 .f32) (k : Fin 9) (m : Fin 4096) :
    k0_pay15 v9 v11 v13 v32 v35 v37 (ix2 k m)
      = ![v9 (ix2 (0 : Fin 1) m), v11 (ix2 (0 : Fin 1) m), v13 (ix2 (0 : Fin 1) m), v32 (ix2 (0 : Fin 1) m),
          v35 (ix2 (0 : Fin 1) m), v37 (ix2 (0 : Fin 1) m), wone, wone, wone] k := by
  have key : ∀ q : Fin 9, k0_pay15 v9 v11 v13 v32 v35 v37 (ix2 q m)
      = concatenate S9x4096 0 [⟨S1x4096, v9⟩, ⟨S1x4096, v11⟩, ⟨S1x4096, v13⟩, ⟨S1x4096, v32⟩, ⟨S1x4096, v35⟩, ⟨S1x4096, v37⟩,
          ⟨S3x4096, broadcast S3x4096 (Scalar.ofBits .f32 0x3F800000#32)⟩]
        Facts₀.concatenates_S1x4096_S1x4096_S1x4096_S1x4096_S1x4096_S1x4096_S3x4096_S9x4096_d0 (ix2 q m) := fun q => rfl
  rw [key]
  match k with
  | ⟨0, _⟩ => exact Eq.trans (concatenate_apply_piece _ _ _ _ 0 (by simp) S1x4096 _ (by rfl) (by rfl) 0 (by rfl) (ix2 (0 : Fin 1) m)
      (fun b hb => by match b, hb with | ⟨0, _⟩, hb => exact absurd rfl hb | ⟨1, _⟩, _ => rfl) (by rfl)) (by rfl)
  | ⟨1, _⟩ => exact Eq.trans (concatenate_apply_piece _ _ _ _ 1 (by simp) S1x4096 _ (by rfl) (by rfl) 1 (by rfl) (ix2 (0 : Fin 1) m)
      (fun b hb => by match b, hb with | ⟨0, _⟩, hb => exact absurd rfl hb | ⟨1, _⟩, _ => rfl) (by rfl)) (by rfl)
  | ⟨2, _⟩ => exact Eq.trans (concatenate_apply_piece _ _ _ _ 2 (by simp) S1x4096 _ (by rfl) (by rfl) 2 (by rfl) (ix2 (0 : Fin 1) m)
      (fun b hb => by match b, hb with | ⟨0, _⟩, hb => exact absurd rfl hb | ⟨1, _⟩, _ => rfl) (by rfl)) (by rfl)
  | ⟨3, _⟩ => exact Eq.trans (concatenate_apply_piece _ _ _ _ 3 (by simp) S1x4096 _ (by rfl) (by rfl) 3 (by rfl) (ix2 (0 : Fin 1) m)
      (fun b hb => by match b, hb with | ⟨0, _⟩, hb => exact absurd rfl hb | ⟨1, _⟩, _ => rfl) (by rfl)) (by rfl)
  | ⟨4, _⟩ => exact Eq.trans (concatenate_apply_piece _ _ _ _ 4 (by simp) S1x4096 _ (by rfl) (by rfl) 4 (by rfl) (ix2 (0 : Fin 1) m)
      (fun b hb => by match b, hb with | ⟨0, _⟩, hb => exact absurd rfl hb | ⟨1, _⟩, _ => rfl) (by rfl)) (by rfl)
  | ⟨5, _⟩ => exact Eq.trans (concatenate_apply_piece _ _ _ _ 5 (by simp) S1x4096 _ (by rfl) (by rfl) 5 (by rfl) (ix2 (0 : Fin 1) m)
      (fun b hb => by match b, hb with | ⟨0, _⟩, hb => exact absurd rfl hb | ⟨1, _⟩, _ => rfl) (by rfl)) (by rfl)
  | ⟨6, _⟩ => exact Eq.trans (concatenate_apply_piece _ _ _ _ 6 (by simp) S3x4096 _ (by rfl) (by rfl) 6 (by rfl) (ix2 (0 : Fin 3) m)
      (fun b hb => by match b, hb with | ⟨0, _⟩, hb => exact absurd rfl hb | ⟨1, _⟩, _ => rfl) (by rfl)) (by rfl)
  | ⟨7, _⟩ => exact Eq.trans (concatenate_apply_piece _ _ _ _ 6 (by simp) S3x4096 _ (by rfl) (by rfl) 6 (by rfl) (ix2 (1 : Fin 3) m)
      (fun b hb => by match b, hb with | ⟨0, _⟩, hb => exact absurd rfl hb | ⟨1, _⟩, _ => rfl) (by rfl)) (by rfl)
  | ⟨8, _⟩ => exact Eq.trans (concatenate_apply_piece _ _ _ _ 6 (by simp) S3x4096 _ (by rfl) (by rfl) 6 (by rfl) (ix2 (2 : Fin 3) m)
      (fun b hb => by match b, hb with | ⟨0, _⟩, hb => exact absurd rfl hb | ⟨1, _⟩, _ => rfl) (by rfl)) (by rfl)

end Cert.Chamfer

end
-- ==== Proof.Payloads.lean ====
/-
  Each payload of the kernel body read at an index, as a formula of the payloads it reads, at the exact values —
  stated over vector variables, so that the composition can rewrite with them. In order: the two nine-wide
  operands entry by entry; each 1024-column run of their product; a run's clamped column minima; the running
  row minimum over the runs and its clamp; the running sum of the clamped column minima; the sum of the clamped
  row minima; and the grid point's scaled share of the mean.
-/
import proofs.«174645_g31980326486603_cont_9to1_2083_17_alg».proof.Proof.Operands

noncomputable section

namespace Cert.Chamfer

open Finset Idealize.ShloMosaic Idealize.ShloMosaic.ValueIdx Cert.KernelIdeal Cert.KernelIdeal.Gen

/-! ## The four runs of the product -/

section Runs
variable (v1 : FVec Ideal S4096x3 .f32) (v9 v11 v13 : FVec Ideal S1x4096 .f32) (v25 v28 v30 : FVec Ideal S4096x1 .f32) (v32 v35 v37 : FVec Ideal S1x4096 .f32) (v42 : FVec Ideal S4096x9 .bf16) (v45 : FVec Ideal S9x4096 .bf16)

theorem pay16_apply (n : Fin 4096) (j : Fin 1024) :
    k0_pay16 v1 v9 v11 v13 v25 v28 v30 v32 v35 v37 (ix2 n j)
      = ∑ k : Fin 9, k0_pay14 v1 v25 v28 v30 (ix2 n k) * k0_pay15 v9 v11 v13 v32 v35 v37 (ix2 k (at4096 0 (by norm_num) j)) := by
  unfold k0_pay16; try dsimp only
  exact chunk_apply _ _ 0 (by norm_num) Facts₀.slices_S9x4096_o0_0_S9x1024 n j

theorem pay19_apply (n : Fin 4096) (j : Fin 1024) :
    k0_pay19 v1 v9 v11 v13 v25 v28 v30 v32 v35 v37 (ix2 n j)
      = ∑ k : Fin 9, k0_pay14 v1 v25 v28 v30 (ix2 n k) * k0_pay15 v9 v11 v13 v32 v35 v37 (ix2 k (at4096 1024 (by norm_num) j)) := by
  unfold k0_pay19; try dsimp only
  exact chunk_apply _ _ 1024 (by norm_num) Facts₀.slices_S9x4096_o0_1024_S9x1024 n j

theorem pay24_apply (n : Fin 4096) (j : Fin 1024) :
    k0_pay24 v42 v45 (ix2 n j) = ∑ k : Fin 9, v42 (ix2 n k) * v45 (ix2 k (at4096 2048 (by norm_num) j)) := by
  unfold k0_pay24; try dsimp only
  exact chunk_apply _ _ 2048 (by norm_num) Facts₀.slices_S9x4096_o0_2048_S9x1024 n j

theorem pay27_apply (n : Fin 4096) (j : Fin 1024) :
    k0_pay27 v42 v45 (ix2 n j) = ∑ k : Fin 9, v42 (ix2 n k) * v45 (ix2 k (at4096 3072 (by norm_num) j)) := by
  unfold k0_pay27; try dsimp only
  exact chunk_apply _ _ 3072 (by norm_num) Facts₀.slices_S9x4096_o0_3072_S9x1024 n j

/-! ## Column minima of a run, clamped -/

/-- A run's column minimum, from the run's tile. -/
theorem colpiece (M : FVec Ideal S4096x1024 .f32) (hφ : FKind.Formats .f32)
    (hacc : (0x7F800000#32 : BitVec FTy.f32.bits) = FKind.minimumf.neutral .f32 hφ) (h : S1024.ShapeCasts S1x1024) (j : Fin 1024) :
    shapeCast S1x1024 (multiReduction .minimumf [0] S1024 M 0x7F800000#32 Facts₀.reduces_S4096x1024_S1024 hφ hacc) h (ix2 (0 : Fin 1) j)
      = univ.inf fun n : Fin 4096 => M (ix2 n j) :=
  Eq.trans (cast_1024_row _ h j) (colmin_apply M hφ hacc j)

/-- A run's row minimum as a column entry, from the run's tile. -/
theorem rowpiece (M : FVec Ideal S4096x1024 .f32) (hφ : FKind.Formats .f32)
    (hacc : (0x7F800000#32 : BitVec FTy.f32.bits) = FKind.minimumf.neutral .f32 hφ) (h : S4096.ShapeCasts S4096x1) (n : Fin 4096) :
    shapeCast S4096x1 (multiReduction .minimumf [1] S4096 M 0x7F800000#32 Facts₀.reduces_S4096x1024_S4096 hφ hacc) h (ix2 n (0 : Fin 1))
      = univ.inf fun j : Fin 1024 => M (ix2 n j) :=
  Eq.trans (Cert.Columns.shapeCast_a_a1_apply _ h n 0) (rowmin_apply M hφ hacc n)

/-- A row's sum as the one entry of a 1×1 matrix. -/
theorem sumpiece (v : FVec Ideal S1x1024 .f32) (hφ : FKind.Formats .f32)
    (hacc : (0x00000000#32 : BitVec FTy.f32.bits) = FKind.add.neutral .f32 hφ) (h : S1.ShapeCasts S1x1) :
    shapeCast S1x1 (multiReduction .add [1] S1 v 0x00000000#32 Facts₀.reduces_S1x1024_S1 hφ hacc) h (ix2 (0 : Fin 1) (0 : Fin 1))
      = ∑ j : Fin 1024, v (ix2 (0 : Fin 1) j) :=
  Eq.trans (cast_1_1x1 _ h) (rowsum_apply v hφ hacc)

theorem pay17_apply (j : Fin 1024) :
    k0_pay17 v1 v9 v11 v13 v25 v28 v30 v32 v35 v37 (ix2 (0 : Fin 1) j) = max (univ.inf fun n : Fin 4096 => k0_pay16 v1 v9 v11 v13 v25 v28 v30 v32 v35 v37 (ix2 n j)) wzero := by
  unfold k0_pay17
  try dsimp only
  rw [maximumf_apply, broadcast_apply]
  exact congrArg₂ max (colpiece _ _ _ _ j) rfl

theorem pay20_apply (j : Fin 1024) :
    k0_pay20 v1 v9 v11 v13 v25 v28 v30 v32 v35 v37 (ix2 (0 : Fin 1) j) = max (univ.inf fun n : Fin 4096 => k0_pay19 v1 v9 v11 v13 v25 v28 v30 v32 v35 v37 (ix2 n j)) wzero := by
  unfold k0_pay20
  try dsimp only
  rw [maximumf_apply, broadcast_apply]
  exact congrArg₂ max (colpiece _ _ _ _ j) rfl

theorem pay25_apply (j : Fin 1024) :
    k0_pay25 v42 v45 (ix2 (0 : Fin 1) j) = max (univ.inf fun n : Fin 4096 => k0_pay24 v42 v45 (ix2 n j)) wzero := by
  unfold k0_pay25
  try dsimp only
  rw [maximumf_apply, broadcast_apply]
  exact congrArg₂ max (colpiece _ _ _ _ j) rfl

theorem pay28_apply (j : Fin 1024) :
    k0_pay28 v42 v45 (ix2 (0 : Fin 1) j) = max (univ.inf fun n : Fin 4096 => k0_pay27 v42 v45 (ix2 n j)) wzero := by
  unfold k0_pay28
  try dsimp only
  rw [maximumf_apply, broadcast_apply]
  exact congrArg₂ max (colpiece _ _ _ _ j) rfl

/-- The stored pieces are the clamped column minima with two unit axes in front. -/
theorem pay18_apply (j : Fin 1024) :
    k0_pay18 v1 v9 v11 v13 v25 v28 v30 v32 v35 v37 (ix3 (0 : Fin 1) (0 : Fin 1) j) = k0_pay17 v1 v9 v11 v13 v25 v28 v30 v32 v35 v37 (ix2 (0 : Fin 1) j) := by
  unfold k0_pay18; try dsimp only
  exact cast_1x1024_block _ _ j
theorem pay21_apply (j : Fin 1024) :
    k0_pay21 v1 v9 v11 v13 v25 v28 v30 v32 v35 v37 (ix3 (0 : Fin 1) (0 : Fin 1) j) = k0_pay20 v1 v9 v11 v13 v25 v28 v30 v32 v35 v37 (ix2 (0 : Fin 1) j) := by
  unfold k0_pay21; try dsimp only
  exact cast_1x1024_block _ _ j
theorem pay26_apply (j : Fin 1024) :
    k0_pay26 v42 v45 (ix3 (0 : Fin 1) (0 : Fin 1) j) = k0_pay25 v42 v45 (ix2 (0 : Fin 1) j) := by
  unfold k0_pay26; try dsimp only
  exact cast_1x1024_block _ _ j
theorem pay29_apply (j : Fin 1024) :
    k0_pay29 v42 v45 (ix3 (0 : Fin 1) (0 : Fin 1) j) = k0_pay28 v42 v45 (ix2 (0 : Fin 1) j) := by
  unfold k0_pay29; try dsimp only
  exact cast_1x1024_block _ _ j

/-! ## The running row minimum, its clamp, and the sums -/

theorem pay23_apply (n : Fin 4096) :
    k0_pay23 v1 v9 v11 v13 v25 v28 v30 v32 v35 v37 (ix2 n (0 : Fin 1))
      = min (univ.inf fun j : Fin 1024 => k0_pay16 v1 v9 v11 v13 v25 v28 v30 v32 v35 v37 (ix2 n j)) (univ.inf fun j : Fin 1024 => k0_pay19 v1 v9 v11 v13 v25 v28 v30 v32 v35 v37 (ix2 n j)) := by
  unfold k0_pay23
  try dsimp only
  rw [minimumf_apply]
  exact congrArg₂ min (rowpiece _ _ _ _ n) (rowpiece _ _ _ _ n)

theorem pay31_apply (v75 : FVec Ideal S4096x1 .f32) (n : Fin 4096) :
    k0_pay31 v42 v45 v75 (ix2 n (0 : Fin 1))
      = max (min (min (v75 (ix2 n (0 : Fin 1))) (univ.inf fun j : Fin 1024 => k0_pay24 v42 v45 (ix2 n j)))
          (univ.inf fun j : Fin 1024 => k0_pay27 v42 v45 (ix2 n j))) wzero := by
  unfold k0_pay31
  try dsimp only
  rw [maximumf_apply, minimumf_apply, minimumf_apply, broadcast_apply]
  exact congrArg₂ max (congrArg₂ min (congrArg₂ min rfl (rowpiece _ _ _ _ n)) (rowpiece _ _ _ _ n)) rfl

theorem pay32_apply (v75 : FVec Ideal S4096x1 .f32) (n : Fin 4096) :
    k0_pay32 v42 v45 v75 (ix3 (0 : Fin 1) n (0 : Fin 1)) = k0_pay31 v42 v45 v75 (ix2 n (0 : Fin 1)) := by
  unfold k0_pay32; try dsimp only
  exact cast_4096x1_block _ _ n

theorem pay22_apply :
    k0_pay22 v1 v9 v11 v13 v25 v28 v30 v32 v35 v37 (ix2 (0 : Fin 1) (0 : Fin 1))
      = (wzero + ∑ j : Fin 1024, k0_pay17 v1 v9 v11 v13 v25 v28 v30 v32 v35 v37 (ix2 (0 : Fin 1) j)) + ∑ j : Fin 1024, k0_pay20 v1 v9 v11 v13 v25 v28 v30 v32 v35 v37 (ix2 (0 : Fin 1) j) := by
  unfold k0_pay22
  try dsimp only
  rw [addf_apply, addf_apply, broadcast_apply]
  exact congrArg₂ (· + ·) (congrArg₂ (· + ·) rfl (sumpiece _ _ _ _)) (sumpiece _ _ _ _)

theorem pay30_apply (v72 : FVec Ideal S1x1 .f32) :
    k0_pay30 v42 v45 v72 (ix2 (0 : Fin 1) (0 : Fin 1))
      = (v72 (ix2 (0 : Fin 1) (0 : Fin 1)) + ∑ j : Fin 1024, k0_pay25 v42 v45 (ix2 (0 : Fin 1) j))
          + ∑ j : Fin 1024, k0_pay28 v42 v45 (ix2 (0 : Fin 1) j) := by
  unfold k0_pay30
  try dsimp only
  rw [addf_apply, addf_apply]
  exact congrArg₂ (· + ·) (congrArg₂ (· + ·) rfl (sumpiece _ _ _ _)) (sumpiece _ _ _ _)

theorem pay33_apply (v75 : FVec Ideal S4096x1 .f32) :
    k0_pay33 v42 v45 v75 (ix1 (0 : Fin 1)) = ∑ n : Fin 4096, k0_pay31 v42 v45 v75 (ix2 n (0 : Fin 1)) := by
  unfold k0_pay33; try dsimp only
  exact colsum_apply _ _ _

theorem pay1_apply (v102 : FVec Ideal S1x1 .f32) (v111 : FVec Ideal S1 .f32) :
    k0_pay1 v102 v111 (ix3 (0 : Fin 1) (0 : Fin 1) (0 : Fin 1))
      = v111 (ix1 (0 : Fin 1)) * wscale + v102 (ix2 (0 : Fin 1) (0 : Fin 1)) * wscale := by
  unfold k0_pay1; try dsimp only
  refine (cast_1x1_block _ _).trans ?_
  rw [addf_apply, mulf_apply, mulf_apply, broadcast_apply]
  exact congrArg₂ (· + ·) (congrArg₂ (· * ·) (cast_1_1x1 _ _) rfl) rfl

end Runs

end Cert.Chamfer

end
-- ==== Proof.Body.lean ====
/-
  What one grid point leaves in its three output blocks, from its seven input blocks, at the exact values.
  With `X n k` the first cloud's coordinates in the block, `c₀ c₁ c₂` the same coordinates as columns and
  `r₀ r₁ r₂` the second cloud's coordinates as rows: entry `n` of the first output block is `rowMinK … n` (the
  point's nearest squared distance), entry `m` of the second is `colMinK … m`, and the one entry of the third is
  `partK …` (the block's scaled share of the mean) — the definitions of Laws.lean.
-/
import proofs.«174645_g31980326486603_cont_9to1_2083_17_alg».proof.Proof.Gen.KernelIdeal.Frame
import proofs.«174645_g31980326486603_cont_9to1_2083_17_alg».proof.Proof.Payloads

noncomputable section

namespace Cert.Chamfer

open Finset Idealize.ShloMosaic Idealize.ShloMosaic.ValueIdx Cert.KernelIdeal Cert.KernelIdeal.Gen

section Body
variable (x0 : FVec Ideal S1x4096x3 .f32) (x1 x2 x3 : FVec Ideal S1x4096x1 .f32) (x4 x5 x6 : FVec Ideal S1x1x4096 .f32)

/-- The first cloud's coordinates in the block. -/
def bX : Fin 4096 → Fin 3 → EReal := fun n d => x0 (ix3 (0 : Fin 1) n d)
/-- One coordinate of the first cloud, as a column. -/
def bcol (x : FVec Ideal S1x4096x1 .f32) : Fin 4096 → EReal := fun n => x (ix3 (0 : Fin 1) n (0 : Fin 1))
/-- One coordinate of the second cloud, as a row. -/
def brow (x : FVec Ideal S1x1x4096 .f32) : Fin 4096 → EReal := fun m => x (ix3 (0 : Fin 1) (0 : Fin 1) m)

/-- The squared norm of point `n` of the first cloud, as the body adds it up. -/
theorem sq_col (n : Fin 4096) : k0_pay6 (F := Ideal) x1 x2 x3 (ix2 n (0 : Fin 1)) = sq3 (bcol x1 n) (bcol x2 n) (bcol x3 n) := by
  unfold k0_pay6
  try dsimp only
  rw [addf_apply, addf_apply, mulf_apply, mulf_apply, mulf_apply]
  rw [cast_1x4096x1, cast_1x4096x1, cast_1x4096x1]
  rfl

/-- The squared norm of point `m` of the second cloud. -/
theorem sq_row (m : Fin 4096) : k0_pay7 (F := Ideal) x4 x5 x6 (ix2 (0 : Fin 1) m) = sq3 (brow x4 m) (brow x5 m) (brow x6 m) := by
  unfold k0_pay7 k0_pay3 k0_pay4 k0_pay5
  try dsimp only
  rw [addf_apply, addf_apply, mulf_apply, mulf_apply, mulf_apply]
  rw [cast_1x1x4096, cast_1x1x4096, cast_1x1x4096]
  rfl

/-- Row `n` of the left operand is `lrow` of the point's coordinates and squared norm. -/
theorem left_apply (n : Fin 4096) (k : Fin 9) :
    (k0_pay14 (k0_pay2 (F := Ideal) x0) (k0_pay8 (F := Ideal) x1 x2 x3) (k0_pay9 (F := Ideal) x1 x2 x3) (k0_pay10 (F := Ideal) x1 x2 x3)) (ix2 n k) = lrow (bX x0 n 0) (bX x0 n 1) (bX x0 n 2) (sq3 (bcol x1 n) (bcol x2 n) (bcol x3 n)) wm2 wone k := by
  refine (pay14_apply _ _ _ _ n k).trans ?_
  have e2 : ∀ d : Fin 3, k0_pay2 (F := Ideal) x0 (ix2 n d) = bX x0 n d := fun d => by
    unfold k0_pay2; exact cast_1x4096x3 x0 _ n d
  have e8 : k0_pay8 (F := Ideal) x1 x2 x3 (ix2 n (0 : Fin 1)) = sq3 (bcol x1 n) (bcol x2 n) (bcol x3 n) := by
    unfold k0_pay8; exact sq_col x1 x2 x3 n
  have e9 : k0_pay9 (F := Ideal) x1 x2 x3 (ix2 n (0 : Fin 1)) = sq3 (bcol x1 n) (bcol x2 n) (bcol x3 n) - sq3 (bcol x1 n) (bcol x2 n) (bcol x3 n) := by
    unfold k0_pay9; (try dsimp only); rw [subf_apply, sq_col, e8]
  have e10 : k0_pay10 (F := Ideal) x1 x2 x3 (ix2 n (0 : Fin 1)) = (sq3 (bcol x1 n) (bcol x2 n) (bcol x3 n) - sq3 (bcol x1 n) (bcol x2 n) (bcol x3 n)) - (sq3 (bcol x1 n) (bcol x2 n) (bcol x3 n) - sq3 (bcol x1 n) (bcol x2 n) (bcol x3 n)) := by
    unfold k0_pay10; (try dsimp only); rw [subf_apply, subf_apply, sq_col, e8, e9]
  rw [e2 0, e2 1, e2 2, e8, e9, e10]
  rfl

/-- Column `m` of the right operand is `rcol` of the point's coordinates and squared norm. -/
theorem right_apply (k : Fin 9) (m : Fin 4096) :
    (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix2 k m) = rcol (brow x4 m) (brow x5 m) (brow x6 m) (sq3 (brow x4 m) (brow x5 m) (brow x6 m)) wone k := by
  refine (pay15_apply _ _ _ _ _ _ k m).trans ?_
  have e3 : k0_pay3 (F := Ideal) x4 (ix2 (0 : Fin 1) m) = brow x4 m := by unfold k0_pay3; exact cast_1x1x4096 x4 _ m
  have e4 : k0_pay4 (F := Ideal) x5 (ix2 (0 : Fin 1) m) = brow x5 m := by unfold k0_pay4; exact cast_1x1x4096 x5 _ m
  have e5 : k0_pay5 (F := Ideal) x6 (ix2 (0 : Fin 1) m) = brow x6 m := by unfold k0_pay5; exact cast_1x1x4096 x6 _ m
  have e11 : k0_pay11 (F := Ideal) x4 x5 x6 (ix2 (0 : Fin 1) m) = sq3 (brow x4 m) (brow x5 m) (brow x6 m) := by
    unfold k0_pay11; exact sq_row x4 x5 x6 m
  have e12 : k0_pay12 (F := Ideal) x4 x5 x6 (ix2 (0 : Fin 1) m) = sq3 (brow x4 m) (brow x5 m) (brow x6 m) - sq3 (brow x4 m) (brow x5 m) (brow x6 m) := by
    unfold k0_pay12; (try dsimp only); rw [subf_apply, sq_row, e11]
  have e13 : k0_pay13 (F := Ideal) x4 x5 x6 (ix2 (0 : Fin 1) m) = (sq3 (brow x4 m) (brow x5 m) (brow x6 m) - sq3 (brow x4 m) (brow x5 m) (brow x6 m)) - (sq3 (brow x4 m) (brow x5 m) (brow x6 m) - sq3 (brow x4 m) (brow x5 m) (brow x6 m)) := by
    unfold k0_pay13; (try dsimp only); rw [subf_apply, subf_apply, sq_row, e11, e12]
  rw [e3, e4, e5, e11, e12, e13]
  rfl

/-! ## The four runs are runs of `dK` -/

theorem run0_apply (n : Fin 4096) (j : Fin 1024) :
    k0_pay16 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix2 n j) = dK (bX x0) (bcol x1) (bcol x2) (bcol x3) (brow x4) (brow x5) (brow x6) wm2 wone n (at4096 0 (by norm_num) j) :=
  (pay16_apply _ _ _ _ _ _ _ _ _ _ n j).trans
    (Finset.sum_congr rfl fun k _ => congrArg₂ (· * ·) (left_apply x0 x1 x2 x3 n k) (right_apply x4 x5 x6 k _))

theorem run1_apply (n : Fin 4096) (j : Fin 1024) :
    k0_pay19 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix2 n j) = dK (bX x0) (bcol x1) (bcol x2) (bcol x3) (brow x4) (brow x5) (brow x6) wm2 wone n (at4096 1024 (by norm_num) j) :=
  (pay19_apply _ _ _ _ _ _ _ _ _ _ n j).trans
    (Finset.sum_congr rfl fun k _ => congrArg₂ (· * ·) (left_apply x0 x1 x2 x3 n k) (right_apply x4 x5 x6 k _))

theorem run2_apply (n : Fin 4096) (j : Fin 1024) :
    k0_pay24 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix2 n j) = dK (bX x0) (bcol x1) (bcol x2) (bcol x3) (brow x4) (brow x5) (brow x6) wm2 wone n (at4096 2048 (by norm_num) j) :=
  (pay24_apply _ _ n j).trans
    (Finset.sum_congr rfl fun k _ => congrArg₂ (· * ·) (left_apply x0 x1 x2 x3 n k) (right_apply x4 x5 x6 k _))

theorem run3_apply (n : Fin 4096) (j : Fin 1024) :
    k0_pay27 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix2 n j) = dK (bX x0) (bcol x1) (bcol x2) (bcol x3) (brow x4) (brow x5) (brow x6) wm2 wone n (at4096 3072 (by norm_num) j) :=
  (pay27_apply _ _ n j).trans
    (Finset.sum_congr rfl fun k _ => congrArg₂ (· * ·) (left_apply x0 x1 x2 x3 n k) (right_apply x4 x5 x6 k _))

/-! ## Row minima, column minima, the share of the mean -/

theorem rowmin31 (n : Fin 4096) :
    k0_pay31 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (k0_pay23 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6)) (ix2 n (0 : Fin 1)) = rowMinK (bX x0) (bcol x1) (bcol x2) (bcol x3) (brow x4) (brow x5) (brow x6) wm2 wone wzero n := by
  rw [pay31_apply, pay23_apply]
  unfold rowMinK
  exact congrArg₂ max (congrArg₂ min (congrArg₂ min (congrArg₂ min
    (congrArg (Finset.inf Finset.univ) (funext fun j => run0_apply x0 x1 x2 x3 x4 x5 x6 n j))
    (congrArg (Finset.inf Finset.univ) (funext fun j => run1_apply x0 x1 x2 x3 x4 x5 x6 n j)))
    (congrArg (Finset.inf Finset.univ) (funext fun j => run2_apply x0 x1 x2 x3 x4 x5 x6 n j)))
    (congrArg (Finset.inf Finset.univ) (funext fun j => run3_apply x0 x1 x2 x3 x4 x5 x6 n j))) rfl

theorem colmin17 (j : Fin 1024) :
    k0_pay17 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix2 (0 : Fin 1) j) = colMinK (bX x0) (bcol x1) (bcol x2) (bcol x3) (brow x4) (brow x5) (brow x6) wm2 wone wzero (at4096 0 (by norm_num) j) := by
  rw [pay17_apply]; unfold colMinK
  exact congrArg₂ max (congrArg (Finset.inf Finset.univ) (funext fun n => run0_apply x0 x1 x2 x3 x4 x5 x6 n j)) rfl
theorem colmin20 (j : Fin 1024) :
    k0_pay20 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix2 (0 : Fin 1) j) = colMinK (bX x0) (bcol x1) (bcol x2) (bcol x3) (brow x4) (brow x5) (brow x6) wm2 wone wzero (at4096 1024 (by norm_num) j) := by
  rw [pay20_apply]; unfold colMinK
  exact congrArg₂ max (congrArg (Finset.inf Finset.univ) (funext fun n => run1_apply x0 x1 x2 x3 x4 x5 x6 n j)) rfl
theorem colmin25 (j : Fin 1024) :
    k0_pay25 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix2 (0 : Fin 1) j) = colMinK (bX x0) (bcol x1) (bcol x2) (bcol x3) (brow x4) (brow x5) (brow x6) wm2 wone wzero (at4096 2048 (by norm_num) j) := by
  rw [pay25_apply]; unfold colMinK
  exact congrArg₂ max (congrArg (Finset.inf Finset.univ) (funext fun n => run2_apply x0 x1 x2 x3 x4 x5 x6 n j)) rfl
theorem colmin28 (j : Fin 1024) :
    k0_pay28 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix2 (0 : Fin 1) j) = colMinK (bX x0) (bcol x1) (bcol x2) (bcol x3) (brow x4) (brow x5) (brow x6) wm2 wone wzero (at4096 3072 (by norm_num) j) := by
  rw [pay28_apply]; unfold colMinK
  exact congrArg₂ max (congrArg (Finset.inf Finset.univ) (funext fun n => run3_apply x0 x1 x2 x3 x4 x5 x6 n j)) rfl

theorem colrun0 (j : Fin 1024) : k0_pay18 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix3 (0 : Fin 1) (0 : Fin 1) j)
    = colMinK (bX x0) (bcol x1) (bcol x2) (bcol x3) (brow x4) (brow x5) (brow x6) wm2 wone wzero (at4096 0 (by norm_num) j) := (pay18_apply _ _ _ _ _ _ _ _ _ _ j).trans (colmin17 x0 x1 x2 x3 x4 x5 x6 j)
theorem colrun1 (j : Fin 1024) : k0_pay21 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6) (ix3 (0 : Fin 1) (0 : Fin 1) j)
    = colMinK (bX x0) (bcol x1) (bcol x2) (bcol x3) (brow x4) (brow x5) (brow x6) wm2 wone wzero (at4096 1024 (by norm_num) j) := (pay21_apply _ _ _ _ _ _ _ _ _ _ j).trans (colmin20 x0 x1 x2 x3 x4 x5 x6 j)
theorem colrun2 (j : Fin 1024) : k0_pay26 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix3 (0 : Fin 1) (0 : Fin 1) j)
    = colMinK (bX x0) (bcol x1) (bcol x2) (bcol x3) (brow x4) (brow x5) (brow x6) wm2 wone wzero (at4096 2048 (by norm_num) j) := (pay26_apply _ _ j).trans (colmin25 x0 x1 x2 x3 x4 x5 x6 j)
theorem colrun3 (j : Fin 1024) : k0_pay29 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (ix3 (0 : Fin 1) (0 : Fin 1) j)
    = colMinK (bX x0) (bcol x1) (bcol x2) (bcol x3) (brow x4) (brow x5) (brow x6) wm2 wone wzero (at4096 3072 (by norm_num) j) := (pay29_apply _ _ j).trans (colmin28 x0 x1 x2 x3 x4 x5 x6 j)

theorem part1 :
    k0_pay1 (k0_pay30 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (k0_pay22 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6))) (k0_pay33 (k0_pay14 (k0_pay2 (F := Ideal) x0) (k0_pay8 (F := Ideal) x1 x2 x3) (k0_pay9 (F := Ideal) x1 x2 x3) (k0_pay10 (F := Ideal) x1 x2 x3)) (k0_pay15 (k0_pay3 (F := Ideal) x4) (k0_pay4 (F := Ideal) x5) (k0_pay5 (F := Ideal) x6) (k0_pay11 (F := Ideal) x4 x5 x6) (k0_pay12 (F := Ideal) x4 x5 x6) (k0_pay13 (F := Ideal) x4 x5 x6)) (k0_pay23 (k0_pay2 (F := Ideal) x0) (k0_pay3 (F := Ideal) x4) (k0_pay4 (F := Ideal) x5) (k0_pay5 (F := Ideal) x6) (k0_pay8 (F := Ideal) x1 x2 x3) (k0_pay9 (F := Ideal) x1 x2 x3) (k0_pay10 (F := Ideal) x1 x2 x3) (k0_pay11 (F := Ideal) x4 x5 x6) (k0_pay12 (F := Ideal) x4 x5 x6) (k0_pay13 (F := Ideal) x4 x5 x6)))
        (ix3 (0 : Fin 1) (0 : Fin 1) (0 : Fin 1)) = partK (bX x0) (bcol x1) (bcol x2) (bcol x3) (brow x4) (brow x5) (brow x6) wm2 wone wzero wscale := by
  rw [pay1_apply, pay33_apply, pay30_apply, pay22_apply]
  unfold partK
  exact congrArg₂ (· + ·)
    (congrArg₂ (· * ·) (Finset.sum_congr rfl fun n _ => rowmin31 x0 x1 x2 x3 x4 x5 x6 n) rfl)
    (congrArg₂ (· * ·) (congrArg₂ (· + ·) (congrArg₂ (· + ·) (congrArg₂ (· + ·) (congrArg₂ (· + ·) rfl
      (Finset.sum_congr rfl fun j _ => colmin17 x0 x1 x2 x3 x4 x5 x6 j)) (Finset.sum_congr rfl fun j _ => colmin20 x0 x1 x2 x3 x4 x5 x6 j))
      (Finset.sum_congr rfl fun j _ => colmin25 x0 x1 x2 x3 x4 x5 x6 j)) (Finset.sum_congr rfl fun j _ => colmin28 x0 x1 x2 x3 x4 x5 x6 j)) rfl)

/-! ## The three output blocks -/

theorem hz3 : (![0, 0, 0] : Fin 3 → Nat) = fun _ => 0 := funext fun a => by fin_cases a <;> rfl

/-- Entry `n` of the first output block. -/
theorem out7_apply (n : Fin 4096) :
    out0_7 (F := Ideal) x0 x1 x2 x3 x4 x5 x6 (ix3 (0 : Fin 1) n (0 : Fin 1)) = rowMinK (bX x0) (bcol x1) (bcol x2) (bcol x3) (brow x4) (brow x5) (brow x6) wm2 wone wzero n := by
  unfold out0_7
  rw [View.canon_unit_zero hz3]
  rw [View.ld_unit_zero (Val := Elt Ideal) (S := S1x4096x3) hz3,
    View.ld_unit_zero (Val := Elt Ideal) (S := S1x4096x1) hz3, View.ld_unit_zero (Val := Elt Ideal) (S := S1x4096x1) hz3,
    View.ld_unit_zero (Val := Elt Ideal) (S := S1x4096x1) hz3, View.ld_unit_zero (Val := Elt Ideal) (S := S1x1x4096) hz3,
    View.ld_unit_zero (Val := Elt Ideal) (S := S1x1x4096) hz3, View.ld_unit_zero (Val := Elt Ideal) (S := S1x1x4096) hz3]
  exact (pay32_apply _ _ _ n).trans (rowmin31 x0 x1 x2 x3 x4 x5 x6 n)

/-- The one entry of the third output block. -/
theorem out9_apply :
    out0_9 (F := Ideal) x0 x1 x2 x3 x4 x5 x6 (ix3 (0 : Fin 1) (0 : Fin 1) (0 : Fin 1)) = partK (bX x0) (bcol x1) (bcol x2) (bcol x3) (brow x4) (brow x5) (brow x6) wm2 wone wzero wscale := by
  unfold out0_9
  rw [View.canon_unit_zero hz3]
  rw [View.ld_unit_zero (Val := Elt Ideal) (S := S1x4096x3) hz3,
    View.ld_unit_zero (Val := Elt Ideal) (S := S1x4096x1) hz3, View.ld_unit_zero (Val := Elt Ideal) (S := S1x4096x1) hz3,
    View.ld_unit_zero (Val := Elt Ideal) (S := S1x4096x1) hz3, View.ld_unit_zero (Val := Elt Ideal) (S := S1x1x4096) hz3,
    View.ld_unit_zero (Val := Elt Ideal) (S := S1x1x4096) hz3, View.ld_unit_zero (Val := Elt Ideal) (S := S1x1x4096) hz3]
  exact part1 x0 x1 x2 x3 x4 x5 x6

/-- The second output block as one function of its index: its four stored runs are runs of it. -/
def colBlock : S1x1x4096.Idx → EReal := fun y => colMinK (bX x0) (bcol x1) (bcol x2) (bcol x3) (brow x4) (brow x5) (brow x6) wm2 wone wzero ⟨(y 2).val, (y 2).isLt⟩

/-- Entry `m` of the second output block. -/
theorem out8_apply (m : Fin 4096) :
    out0_8 (F := Ideal) x0 x1 x2 x3 x4 x5 x6 (ix3 (0 : Fin 1) (0 : Fin 1) m) = colMinK (bX x0) (bcol x1) (bcol x2) (bcol x3) (brow x4) (brow x5) (brow x6) wm2 wone wzero m := by
  unfold out0_8
  rw [View.ld_unit_zero (Val := Elt Ideal) (S := S1x4096x3) hz3,
    View.ld_unit_zero (Val := Elt Ideal) (S := S1x4096x1) hz3, View.ld_unit_zero (Val := Elt Ideal) (S := S1x4096x1) hz3,
    View.ld_unit_zero (Val := Elt Ideal) (S := S1x4096x1) hz3, View.ld_unit_zero (Val := Elt Ideal) (S := S1x1x4096) hz3,
    View.ld_unit_zero (Val := Elt Ideal) (S := S1x1x4096) hz3, View.ld_unit_zero (Val := Elt Ideal) (S := S1x1x4096) hz3]
  refine (View.canon_apply_of_pieces (colBlock x0 x1 x2 x3 x4 x5 x6) _ ?_ (ix3 (0 : Fin 1) (0 : Fin 1) m) (cover0_8 _ _ _ _ _)).trans rfl
  intro p hp x
  rcases List.mem_cons.mp hp with rfl | hp
  · obtain ⟨u, w, j, rfl⟩ : ∃ (u : Fin 1) (w : Fin 1) (j : Fin 1024), x = ix3 u w j := ⟨x 0, x 1, x 2, eq_ix3 x⟩
    obtain rfl : u = 0 := Subsingleton.elim _ _
    obtain rfl : w = 0 := Subsingleton.elim _ _
    refine (colrun3 x0 x1 x2 x3 x4 x5 x6 j).trans ?_
    exact congrArg (colMinK (bX x0) (bcol x1) (bcol x2) (bcol x3) (brow x4) (brow x5) (brow x6) wm2 wone wzero) (Fin.ext (by show 3072 + j.val = 3072 + 1 * j.val; omega))
  rcases List.mem_cons.mp hp with rfl | hp
  · obtain ⟨u, w, j, rfl⟩ : ∃ (u : Fin 1) (w : Fin 1) (j : Fin 1024), x = ix3 u w j := ⟨x 0, x 1, x 2, eq_ix3 x⟩
    obtain rfl : u = 0 := Subsingleton.elim _ _
    obtain rfl : w = 0 := Subsingleton.elim _ _
    refine (colrun2 x0 x1 x2 x3 x4 x5 x6 j).trans ?_
    exact congrArg (colMinK (bX x0) (bcol x1) (bcol x2) (bcol x3) (brow x4) (brow x5) (brow x6) wm2 wone wzero) (Fin.ext (by show 2048 + j.val = 2048 + 1 * j.val; omega))
  rcases List.mem_cons.mp hp with rfl | hp
  · obtain ⟨u, w, j, rfl⟩ : ∃ (u : Fin 1) (w : Fin 1) (j : Fin 1024), x = ix3 u w j := ⟨x 0, x 1, x 2, eq_ix3 x⟩
    obtain rfl : u = 0 := Subsingleton.elim _ _
    obtain rfl : w = 0 := Subsingleton.elim _ _
    refine (colrun1 x0 x1 x2 x3 x4 x5 x6 j).trans ?_
    exact congrArg (colMinK (bX x0) (bcol x1) (bcol x2) (bcol x3) (brow x4) (brow x5) (brow x6) wm2 wone wzero) (Fin.ext (by show 1024 + j.val = 1024 + 1 * j.val; omega))
  rcases List.mem_cons.mp hp with rfl | hp
  · obtain ⟨u, w, j, rfl⟩ : ∃ (u : Fin 1) (w : Fin 1) (j : Fin 1024), x = ix3 u w j := ⟨x 0, x 1, x 2, eq_ix3 x⟩
    obtain rfl : u = 0 := Subsingleton.elim _ _
    obtain rfl : w = 0 := Subsingleton.elim _ _
    refine (colrun0 x0 x1 x2 x3 x4 x5 x6 j).trans ?_
    exact congrArg (colMinK (bX x0) (bcol x1) (bcol x2) (bcol x3) (brow x4) (brow x5) (brow x6) wm2 wone wzero) (Fin.ext (by show 0 + j.val = 0 + 1 * j.val; omega))
  exact absurd hp List.not_mem_nil

end Body

end Cert.Chamfer

end
-- ==== Proof.Array.lean ====
/-
  From one grid point's blocks to the three whole output arrays. The grid has four points, one per batch: every
  window's block at point `t` is slab `t` of its array along the leading axis, whole along the other two. So the
  input blocks read the arrays at batch `t`, each output block is what the point computes from batch `t`, the
  four output blocks tile each output array, and after the run the first output array holds each point's nearest
  squared distance, the second each point of the second cloud's, and the third each batch's share of the mean —
  as functions of the seven arrays the region finds.
-/
import proofs.«174645_g31980326486603_cont_9to1_2083_17_alg».proof.Proof.Body
import Idealize.ShloMosaic.Lib.Pipeline.Value

noncomputable section

namespace Cert.Chamfer

open Finset Idealize.ShloMosaic Idealize.ShloMosaic.TcCoe Idealize.ShloMosaic.ValueIdx Idealize.SL.Sem
open Cert.KernelIdeal Cert.KernelIdeal.Gen

/-! ## The arrays' batches as plain functions, and the three output arrays -/

section ArraySpec
variable (A0 : S4x4096x3.Idx → EReal) (A1 A2 A3 : S4x4096x1.Idx → EReal) (A4 A5 A6 : S4x1x4096.Idx → EReal)

/-- Batch `b` of the first cloud. -/
def aX (b : Fin 4) : Fin 4096 → Fin 3 → EReal := fun n d => A0 (ix3 b n d)
/-- Batch `b` of one coordinate column. -/
def acol (A : S4x4096x1.Idx → EReal) (b : Fin 4) : Fin 4096 → EReal := fun n => A (ix3 b n (0 : Fin 1))
/-- Batch `b` of one coordinate row. -/
def arow (A : S4x1x4096.Idx → EReal) (b : Fin 4) : Fin 4096 → EReal := fun q => A (ix3 b (0 : Fin 1) q)

/-- The first output array: at (b, n, ·) the nearest squared distance of point `n` of batch `b`. -/
def G7 : S4x4096x1.Idx → EReal := fun i => rowMinK (aX A0 (i 0)) (acol A1 (i 0)) (acol A2 (i 0)) (acol A3 (i 0)) (arow A4 (i 0)) (arow A5 (i 0)) (arow A6 (i 0)) wm2 wone wzero (i 1)
/-- The second output array: at (b, ·, q) the nearest squared distance of point `q` of the second cloud. -/
def G8 : S4x1x4096.Idx → EReal := fun i => colMinK (aX A0 (i 0)) (acol A1 (i 0)) (acol A2 (i 0)) (acol A3 (i 0)) (arow A4 (i 0)) (arow A5 (i 0)) (arow A6 (i 0)) wm2 wone wzero (i 2)
/-- The third output array: at (b, ·, ·) batch `b`'s share of the mean. -/
def G9 : S4x1x1.Idx → EReal := fun i => partK (aX A0 (i 0)) (acol A1 (i 0)) (acol A2 (i 0)) (acol A3 (i 0)) (arow A4 (i 0)) (arow A5 (i 0)) (arow A6 (i 0)) wm2 wone wzero wscale

end ArraySpec

variable (m : (ℓ : Loc nD τ sig) → Buf (Elt Ideal) ℓ)

/-! ## The index maps: block `t` is slab `t` -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- A grid point as a batch number. -/
def tb (t : Fin cfg0.N) : Fin 4 := ⟨t.val, by have h : cfg0.N = 4 := N_0; have := t.isLt; omega⟩

/-! ## The input blocks read their arrays at batch `t` -/

theorem iblk0_apply (c : Dev nD) (t : Fin cfg0.N) (n : Fin 4096) (d : Fin 3) :
    iblk m c 0 t (ix3 (0 : Fin 1) n d) = V m c main_arg0 (ix3 (tb t) n d) := by
  obtain ⟨e0, e1, e2⟩ := idx0 t
  show V m c main_arg0 (((cfg0.win 0).blk t).view.emb (ix3 (0 : Fin 1) n d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 3 + 1 * d.val = d.val; omega

theorem iblk1_apply (c : Dev nD) (t : Fin cfg0.N) (n : Fin 4096) :
    iblk m c 1 t (ix3 (0 : Fin 1) n (0 : Fin 1)) = V m c main_v0 (ix3 (tb t) n (0 : Fin 1)) := by
  obtain ⟨e0, e1, e2⟩ := idx1 t
  show V m c main_v0 (((cfg0.win 1).blk t).view.emb (ix3 (0 : Fin 1) n (0 : Fin 1))) = _
  refine congrArg (V m c main_v0) (funext fun a => Fin.ext ?_)
  match a with
  | ⟨0, _⟩ => show win0_1.index t (0 : Fin 3) * 1 + 1 * 0 = t.val; omega
  | ⟨1, _⟩ => show win0_1.index t (1 : Fin 3) * 4096 + 1 * n.val = n.val; omega
  | ⟨2, _⟩ => show win0_1.index t (2 : Fin 3) * 1 + 1 * 0 = 0; omega
theorem iblk2_apply (c : Dev nD) (t : Fin cfg0.N) (n : Fin 4096) :
    iblk m c 2 t (ix3 (0 : Fin 1) n (0 : Fin 1)) = V m c main_v1 (ix3 (tb t) n (0 : Fin 1)) := by
  obtain ⟨e0, e1, e2⟩ := idx2 t
  show V m c main_v1 (((cfg0.win 2).blk t).view.emb (ix3 (0 : Fin 1) n (0 : Fin 1))) = _
  refine congrArg (V m c main_v1) (funext fun a => Fin.ext ?_)
  match a with
  | ⟨0, _⟩ => show win0_2.index t (0 : Fin 3) * 1 + 1 * 0 = t.val; omega
  | ⟨1, _⟩ => show win0_2.index t (1 : Fin 3) * 4096 + 1 * n.val = n.val; omega
  | ⟨2, _⟩ => show win0_2.index t (2 : Fin 3) * 1 + 1 * 0 = 0; omega
theorem iblk3_apply (c : Dev nD) (t : Fin cfg0.N) (n : Fin 4096) :
    iblk m c 3 t (ix3 (0 : Fin 1) n (0 : Fin 1)) = V m c main_v2 (ix3 (tb t) n (0 : Fin 1)) := by
  obtain ⟨e0, e1, e2⟩ := idx3 t
  show V m c main_v2 (((cfg0.win 3).blk t).view.emb (ix3 (0 : Fin 1) n (0 : Fin 1))) = _
  refine congrArg (V m c main_v2) (funext fun a => Fin.ext ?_)
  match a with
  | ⟨0, _⟩ => show win0_3.index t (0 : Fin 3) * 1 + 1 * 0 = t.val; omega
  | ⟨1, _⟩ => show win0_3.index t (1 : Fin 3) * 4096 + 1 * n.val = n.val; omega
  | ⟨2, _⟩ => show win0_3.index t (2 : Fin 3) * 1 + 1 * 0 = 0; omega
theorem iblk4_apply (c : Dev nD) (t : Fin cfg0.N) (q : Fin 4096) :
    iblk m c 4 t (ix3 (0 : Fin 1) (0 : Fin 1) q) = V m c main_v5 (ix3 (tb t) (0 : Fin 1) q) := by
  obtain ⟨e0, e1, e2⟩ := idx4 t
  show V m c main_v5 (((cfg0.win 4).blk t).view.emb (ix3 (0 : Fin 1) (0 : Fin 1) q)) = _
  refine congrArg (V m c main_v5) (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 4096 + 1 * q.val = q.val; omega
theorem iblk5_apply (c : Dev nD) (t : Fin cfg0.N) (q : Fin 4096) :
    iblk m c 5 t (ix3 (0 : Fin 1) (0 : Fin 1) q) = V m c main_v8 (ix3 (tb t) (0 : Fin 1) q) := by
  obtain ⟨e0, e1, e2⟩ := idx5 t
  show V m c main_v8 (((cfg0.win 5).blk t).view.emb (ix3 (0 : Fin 1) (0 : Fin 1) q)) = _
  refine congrArg (V m c main_v8) (funext fun a => Fin.ext ?_)
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 4096 + 1 * q.val = q.val; omega
theorem iblk6_apply (c : Dev nD) (t : Fin cfg0.N) (q : Fin 4096) :
    iblk m c 6 t (ix3 (0 : Fin 1) (0 : Fin 1) q) = V m c main_v11 (ix3 (tb t) (0 : Fin 1) q) := by
  obtain ⟨e0, e1, e2⟩ := idx6 t
  show V m c main_v11 (((cfg0.win 6).blk t).view.emb (ix3 (0 : Fin 1) (0 : Fin 1) q)) = _
  refine congrArg (V m c main_v11) (funext fun a => Fin.ext ?_)
  match a with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 4096 + 1 * q.val = q.val; omega

/-- The block's coordinates are the arrays' batch `t`. -/
theorem blocks_eq (c : Dev nD) (t : Fin cfg0.N) :
    bX (iblk m c 0 t) = aX (V m c main_arg0) (tb t) ∧ bcol (iblk m c 1 t) = acol (V m c main_v0) (tb t)
    ∧ bcol (iblk m c 2 t) = acol (V m c main_v1) (tb t) ∧ bcol (iblk m c 3 t) = acol (V m c main_v2) (tb t)
    ∧ brow (iblk m c 4 t) = arow (V m c main_v5) (tb t) ∧ brow (iblk m c 5 t) = arow (V m c main_v8) (tb t)
    ∧ brow (iblk m c 6 t) = arow (V m c main_v11) (tb t) :=
  ⟨funext fun n => funext fun d => iblk0_apply m c t n d, funext fun n => iblk1_apply m c t n,
    funext fun n => iblk2_apply m c t n, funext fun n => iblk3_apply m c t n, funext fun q => iblk4_apply m c t q,
    funext fun q => iblk5_apply m c t q, funext fun q => iblk6_apply m c t q⟩

/-! ## Output window 7: the nearest squared distances of the first cloud -/

theorem block7 (c : Dev nD) (t : Fin cfg0.N) (y : S1x4096x1.Idx) :
    out0_7 (F := Ideal) (iblk m c 0 t) (iblk m c 1 t) (iblk m c 2 t) (iblk m c 3 t) (iblk m c 4 t) (iblk m c 5 t) (iblk m c 6 t) y = G7 (V m c main_arg0) (V m c main_v0) (V m c main_v1) (V m c main_v2) (V m c main_v5) (V m c main_v8) (V m c main_v11) (((cfg0.win 7).blk t).view.emb y) := by
  obtain ⟨u, n, w, rfl⟩ : ∃ (u : Fin 1) (n : Fin 4096) (w : Fin 1), y = ix3 u n w := ⟨y 0, y 1, y 2, eq_ix3 y⟩
  obtain rfl : u = 0 := Subsingleton.elim _ _
  obtain rfl : w = 0 := Subsingleton.elim _ _
  refine (out7_apply _ _ _ _ _ _ _ n).trans ?_
  obtain ⟨h0, h1, h2, h3, h4, h5, h6⟩ := blocks_eq m c t
  rw [h0, h1, h2, h3, h4, h5, h6]
  obtain ⟨e0, e1, e2⟩ := idx7 t
  have he : ((cfg0.win 7).blk t).view.emb (ix3 (0 : Fin 1) n (0 : Fin 1)) = ix3 (tb t) n (0 : Fin 1) := by
    funext a; apply Fin.ext
    match a with
    | ⟨0, _⟩ => show win0_7.index t (0 : Fin 3) * 1 + 1 * 0 = t.val; omega
    | ⟨1, _⟩ => show win0_7.index t (1 : Fin 3) * 4096 + 1 * n.val = n.val; omega
    | ⟨2, _⟩ => show win0_7.index t (2 : Fin 3) * 1 + 1 * 0 = 0; omega
  rw [he]
  rfl

theorem flushed7_eq (c : Dev nD) (t : Fin cfg0.N) :
    (dats m 0 c).flushed 7 t = ((cfg0.win 7).blk t).view.read (Elt Ideal) (G7 (V m c main_arg0) (V m c main_v0) (V m c main_v1) (V m c main_v2) (V m c main_v5) (V m c main_v8) (V m c main_v11)) := by
  show (cfg0.win 7).cut (grid0.coords t) ((dats m 0 c).after 7 t) = _
  rw [after0_7]
  funext y
  exact block7 m c t y

theorem mem_blk7 (t : Fin cfg0.N) (i : S4x4096x1.Idx) :
    i ∈ ((cfg0.win 7).blk t).view.set ↔ ∀ a : Fin 3, win0_7.index t a * S1x4096x1.size a ≤ (i a).val
      ∧ (i a).val < win0_7.index t a * S1x4096x1.size a + S1x4096x1.size a := by
  show i ∈ ((View.whole main_v12_0).slice (win0_7.rect t)).set ↔ _
  rw [View.set_slice_whole, Rect.mem_set_unit]
  exact Iff.rfl

theorem cover7 (i : S4x4096x1.Idx) :
    ∃ t : Fin cfg0.N, (cfg0.win 7).flush t = true ∧ i ∈ ((cfg0.win 7).blk t).view.set := by
  have hN : cfg0.N = 4 := N_0
  have hi0 : (i 0).val < 4 := (i 0).isLt
  have hi1 : (i 1).val < 4096 := (i 1).isLt
  have hi2 : (i 2).val < 1 := (i 2).isLt
  let t : Fin cfg0.N := ⟨(i 0).val, by omega⟩
  have ht : t.val = (i 0).val := rfl
  refine ⟨t, flush0_7 t, ?_⟩
  rw [mem_blk7]
  obtain ⟨e0, e1, e2⟩ := idx7 t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 1 ≤ (i 2).val ∧ (i 2).val < win0_7.index t (2 : Fin 3) * 1 + 1; omega

/-- The first output array after the run. -/
theorem final7 (c : Dev nD) : (dats m 0 c).arrAt 7 cfg0.N = G7 (V m c main_arg0) (V m c main_v0) (V m c main_v1) (V m c main_v2) (V m c main_v5) (V m c main_v8) (V m c main_v11) :=
  (dats m 0 c).arrAt_eq_of_cover 7 _ (fun t _ => flushed7_eq m c t) cover7

/-! ## Output window 8: the nearest squared distances of the second cloud -/

theorem block8 (c : Dev nD) (t : Fin cfg0.N) (y : S1x1x4096.Idx) :
    out0_8 (F := Ideal) (iblk m c 0 t) (iblk m c 1 t) (iblk m c 2 t) (iblk m c 3 t) (iblk m c 4 t) (iblk m c 5 t) (iblk m c 6 t) y = G8 (V m c main_arg0) (V m c main_v0) (V m c main_v1) (V m c main_v2) (V m c main_v5) (V m c main_v8) (V m c main_v11) (((cfg0.win 8).blk t).view.emb y) := by
  obtain ⟨u, w, q, rfl⟩ : ∃ (u : Fin 1) (w : Fin 1) (q : Fin 4096), y = ix3 u w q := ⟨y 0, y 1, y 2, eq_ix3 y⟩
  obtain rfl : u = 0 := Subsingleton.elim _ _
  obtain rfl : w = 0 := Subsingleton.elim _ _
  refine (out8_apply _ _ _ _ _ _ _ q).trans ?_
  obtain ⟨h0, h1, h2, h3, h4, h5, h6⟩ := blocks_eq m c t
  rw [h0, h1, h2, h3, h4, h5, h6]
  obtain ⟨e0, e1, e2⟩ := idx8 t
  have he : ((cfg0.win 8).blk t).view.emb (ix3 (0 : Fin 1) (0 : Fin 1) q) = ix3 (tb t) (0 : Fin 1) q := by
    funext a; apply Fin.ext
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 4096 + 1 * q.val = q.val; omega
  rw [he]
  rfl

theorem flushed8_eq (c : Dev nD) (t : Fin cfg0.N) :
    (dats m 0 c).flushed 8 t = ((cfg0.win 8).blk t).view.read (Elt Ideal) (G8 (V m c main_arg0) (V m c main_v0) (V m c main_v1) (V m c main_v2) (V m c main_v5) (V m c main_v8) (V m c main_v11)) := by
  show (cfg0.win 8).cut (grid0.coords t) ((dats m 0 c).after 8 t) = _
  rw [after0_8]
  funext y
  exact block8 m c t y

theorem mem_blk8 (t : Fin cfg0.N) (i : S4x1x4096.Idx) :
    i ∈ ((cfg0.win 8).blk t).view.set ↔ ∀ a : Fin 3, win0_8.index t a * S1x1x4096.size a ≤ (i a).val
      ∧ (i a).val < win0_8.index t a * S1x1x4096.size a + S1x1x4096.size a := by
  show i ∈ ((View.whole main_v12_1).slice (win0_8.rect t)).set ↔ _
  rw [View.set_slice_whole, Rect.mem_set_unit]
  exact Iff.rfl

theorem cover8 (i : S4x1x4096.Idx) :
    ∃ t : Fin cfg0.N, (cfg0.win 8).flush t = true ∧ i ∈ ((cfg0.win 8).blk t).view.set := by
  have hN : cfg0.N = 4 := N_0
  have hi0 : (i 0).val < 4 := (i 0).isLt
  have hi1 : (i 1).val < 1 := (i 1).isLt
  have hi2 : (i 2).val < 4096 := (i 2).isLt
  let t : Fin cfg0.N := ⟨(i 0).val, by omega⟩
  have ht : t.val = (i 0).val := rfl
  refine ⟨t, flush0_8 t, ?_⟩
  rw [mem_blk8]
  obtain ⟨e0, e1, e2⟩ := idx8 t
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 4096 ≤ (i 2).val ∧ (i 2).val < win0_8.index t (2 : Fin 3) * 4096 + 4096; omega

/-- The second output array after the run. -/
theorem final8 (c : Dev nD) : (dats m 0 c).arrAt 8 cfg0.N = G8 (V m c main_arg0) (V m c main_v0) (V m c main_v1) (V m c main_v2) (V m c main_v5) (V m c main_v8) (V m c main_v11) :=
  (dats m 0 c).arrAt_eq_of_cover 8 _ (fun t _ => flushed8_eq m c t) cover8

/-! ## Output window 9: each batch's share of the mean -/

theorem block9 (c : Dev nD) (t : Fin cfg0.N) (y : S1x1x1.Idx) :
    out0_9 (F := Ideal) (iblk m c 0 t) (iblk m c 1 t) (iblk m c 2 t) (iblk m c 3 t) (iblk m c 4 t) (iblk m c 5 t) (iblk m c 6 t) y = G9 (V m c main_arg0) (V m c main_v0) (V m c main_v1) (V m c main_v2) (V m c main_v5) (V m c main_v8) (V m c main_v11) (((cfg0.win 9).blk t).view.emb y) := by
  obtain ⟨u, w, v, rfl⟩ : ∃ (u : Fin 1) (w : Fin 1) (v : Fin 1), y = ix3 u w v := ⟨y 0, y 1, y 2, eq_ix3 y⟩
  obtain rfl : u = 0 := Subsingleton.elim _ _
  obtain rfl : w = 0 := Subsingleton.elim _ _
  obtain rfl : v = 0 := Subsingleton.elim _ _
  refine (out9_apply _ _ _ _ _ _ _).trans ?_
  obtain ⟨h0, h1, h2, h3, h4, h5, h6⟩ := blocks_eq m c t
  rw [h0, h1, h2, h3, h4, h5, h6]
  obtain ⟨e0, e1, e2⟩ := idx9 t
  have he : ((cfg0.win 9).blk t).view.emb (ix3 (0 : Fin 1) (0 : Fin 1) (0 : Fin 1)) = ix3 (tb t) (0 : Fin 1) (0 : Fin 1) := by
    funext a; apply Fin.ext
    match a with
    | ⟨0, _⟩ => show win0_9.index t (0 : Fin 3) * 1 + 1 * 0 = t.val; omega
    | ⟨1, _⟩ => show win0_9.index t (1 : Fin 3) * 1 + 1 * 0 = 0; omega
    | ⟨2, _⟩ => show win0_9.index t (2 : Fin 3) * 1 + 1 * 0 = 0; omega
  rw [he]
  rfl

theorem flushed9_eq (c : Dev nD) (t : Fin cfg0.N) :
    (dats m 0 c).flushed 9 t = ((cfg0.win 9).blk t).view.read (Elt Ideal) (G9 (V m c main_arg0) (V m c main_v0) (V m c main_v1) (V m c main_v2) (V m c main_v5) (V m c main_v8) (V m c main_v11)) := by
  show (cfg0.win 9).cut (grid0.coords t) ((dats m 0 c).after 9 t) = _
  rw [after0_9]
  funext y
  exact block9 m c t y

theorem mem_blk9 (t : Fin cfg0.N) (i : S4x1x1.Idx) :
    i ∈ ((cfg0.win 9).blk t).view.set ↔ ∀ a : Fin 3, win0_9.index t a * S1x1x1.size a ≤ (i a).val
      ∧ (i a).val < win0_9.index t a * S1x1x1.size a + S1x1x1.size a := by
  show i ∈ ((View.whole main_v12_2).slice (win0_9.rect t)).set ↔ _
  rw [View.set_slice_whole, Rect.mem_set_unit]
  exact Iff.rfl

theorem cover9 (i : S4x1x1.Idx) :
    ∃ t : Fin cfg0.N, (cfg0.win 9).flush t = true ∧ i ∈ ((cfg0.win 9).blk t).view.set := by
  have hN : cfg0.N = 4 := N_0
  have hi0 : (i 0).val < 4 := (i 0).isLt
  have hi1 : (i 1).val < 1 := (i 1).isLt
  have hi2 : (i 2).val < 1 := (i 2).isLt
  let t : Fin cfg0.N := ⟨(i 0).val, by omega⟩
  have ht : t.val = (i 0).val := rfl
  refine ⟨t, flush0_9 t, ?_⟩
  rw [mem_blk9]
  obtain ⟨e0, e1, e2⟩ := idx9 t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 1 ≤ (i 2).val ∧ (i 2).val < win0_9.index t (2 : Fin 3) * 1 + 1; omega

/-- The third output array after the run. -/
theorem final9 (c : Dev nD) : (dats m 0 c).arrAt 9 cfg0.N = G9 (V m c main_arg0) (V m c main_v0) (V m c main_v1) (V m c main_v2) (V m c main_v5) (V m c main_v8) (V m c main_v11) :=
  (dats m 0 c).arrAt_eq_of_cover 9 _ (fun t _ => flushed9_eq m c t) cover9

end Cert.Chamfer

end
-- ==== Proof.Target.lean ====
/-
  The three results both programs are shown to compute, as functions of the two point clouds
  `x y : [4, 4096, 3]`. `refD` is the squared distance between point `n` of the first cloud and point `q` of the
  second in batch `b`, in the reference's spelling (|x|² + |y|²) − 2⟨x,y⟩; `near1` / `near2` are each point's nearest
  clamped squared distance to the other cloud; `meanDist` is the sum of the two clouds' means of those.

  For real clouds, what one grid point of the kernel computes (Laws.lean's `rowMinK`, `colMinK`, `partK` at the
  cloud's coordinates) are these: the product's entries are squared distances (`dK_real`), clamping commutes with
  the minima (`rowMinK_eq`, `colMinK_eq`), and the scaled shares add up to the mean (`mean_law`).
-/
import Idealize.ShloMosaic.Lib.ValueIdx
import proofs.«174645_g31980326486603_cont_9to1_2083_17_alg».proof.Proof.Laws
import proofs.«174645_g31980326486603_cont_9to1_2083_17_alg».proof.Proof.Words

noncomputable section

namespace Cert.Chamfer

open Finset Idealize.ShloMosaic Idealize.ShloMosaic.ValueIdx

abbrev Cloud : Type := (⟨3, ![4, 4096, 3]⟩ : Shape).Idx → EReal

/-- The squared distance between point `n` of `x` and point `q` of `y` in batch `b`. -/
def refD (x y : Cloud) (b : Fin 4) (n q : Fin 4096) : EReal :=
  refDist (fun k => x (ix3 b n k)) (fun k => y (ix3 b q k)) ((2 : ℝ) : EReal)

/-- Nearest clamped squared distance from point (b, n) of `x` to `y`. -/
def near1 (x y : Cloud) : (⟨2, ![4, 4096]⟩ : Shape).Idx → EReal :=
  fun i => univ.inf fun q : Fin 4096 => max (refD x y (i 0) (i 1) q) 0

/-- Nearest clamped squared distance from point (b, q) of `y` to `x`. -/
def near2 (x y : Cloud) : (⟨2, ![4, 4096]⟩ : Shape).Idx → EReal :=
  fun i => univ.inf fun n : Fin 4096 => max (refD x y (i 0) n (i 1)) 0

/-- The mean of `near1` plus the mean of `near2`. -/
def meanDist (x y : Cloud) : EReal :=
  Ideal.div (0 + ∑ b : Fin 4, ∑ n : Fin 4096, near1 x y (ix2 b n)) ((16384 : ℝ) : EReal)
    + Ideal.div (0 + ∑ b : Fin 4, ∑ q : Fin 4096, near2 x y (ix2 b q)) ((16384 : ℝ) : EReal)

/-! ## One batch of the kernel, at the clouds' coordinates -/

section Batch
variable (x y : Cloud) (b : Fin 4)

/-- Batch `b`'s coordinates, as the kernel's grid point sees them. -/
abbrev kX : Fin 4096 → Fin 3 → EReal := fun n k => x (ix3 b n k)
abbrev kc (k : Fin 3) : Fin 4096 → EReal := fun n => x (ix3 b n k)
abbrev kr (k : Fin 3) : Fin 4096 → EReal := fun q => y (ix3 b q k)

end Batch

/-- A cloud of real numbers. -/
def IsRealCloud (x : Cloud) : Prop := ∀ i, ∃ r : ℝ, x i = (r : EReal)

theorem IsRealCloud.eq_coe {x : Cloud} (h : IsRealCloud x) : ∃ xr : (⟨3, ![4, 4096, 3]⟩ : Shape).Idx → ℝ, x = fun i => (xr i : EReal) := by
  choose xr hxr using h
  exact ⟨xr, funext hxr⟩

/-- For real clouds the product's entry is the squared distance. -/
theorem dK_cloud {x y : Cloud} (hx : IsRealCloud x) (hy : IsRealCloud y) (b : Fin 4) (n q : Fin 4096) :
    dK (kX x b) (kc x b 0) (kc x b 1) (kc x b 2) (kr y b 0) (kr y b 1) (kr y b 2) ((-2 : ℝ) : EReal) ((1 : ℝ) : EReal) n q
      = refD x y b n q := by
  obtain ⟨xr, rfl⟩ := hx.eq_coe
  obtain ⟨yr, rfl⟩ := hy.eq_coe
  exact dK_real (fun n k => xr (ix3 b n k)) (fun q k => yr (ix3 b q k)) n q

/-- The kernel's row result is `near1`. -/
theorem rowMinK_cloud {x y : Cloud} (hx : IsRealCloud x) (hy : IsRealCloud y) (b : Fin 4) (n : Fin 4096) :
    rowMinK (kX x b) (kc x b 0) (kc x b 1) (kc x b 2) (kr y b 0) (kr y b 1) (kr y b 2) ((-2 : ℝ) : EReal) ((1 : ℝ) : EReal) 0 n
      = near1 x y (ix2 b n) := by
  rw [rowMinK_eq]
  exact congrArg (Finset.inf Finset.univ) (funext fun q => congrArg (max · 0) (dK_cloud hx hy b n q))

/-- The kernel's column result is `near2`. -/
theorem colMinK_cloud {x y : Cloud} (hx : IsRealCloud x) (hy : IsRealCloud y) (b : Fin 4) (q : Fin 4096) :
    colMinK (kX x b) (kc x b 0) (kc x b 1) (kc x b 2) (kr y b 0) (kr y b 1) (kr y b 2) ((-2 : ℝ) : EReal) ((1 : ℝ) : EReal) 0 q
      = near2 x y (ix2 b q) := by
  rw [colMinK_eq]
  exact congrArg (Finset.inf Finset.univ) (funext fun n => congrArg (max · 0) (dK_cloud hx hy b n q))

/-- The squared distance between real points is real. -/
theorem refD_real {x y : Cloud} (hx : IsRealCloud x) (hy : IsRealCloud y) (b : Fin 4) (n q : Fin 4096) :
    ∃ r : ℝ, refD x y b n q = (r : EReal) := by
  obtain ⟨xr, rfl⟩ := hx.eq_coe
  obtain ⟨yr, rfl⟩ := hy.eq_coe
  refine ⟨((0 + ∑ k, xr (ix3 b n k) * xr (ix3 b n k)) + (0 + ∑ k, yr (ix3 b q k) * yr (ix3 b q k)))
    - 2 * ∑ k, xr (ix3 b n k) * yr (ix3 b q k), ?_⟩
  unfold refD refDist
  rw [Fin.sum_univ_three, Fin.sum_univ_three, Fin.sum_univ_three, Fin.sum_univ_three, Fin.sum_univ_three, Fin.sum_univ_three]
  norm_cast

/-- A minimum over a nonempty finite family of reals, clamped at zero, is real. -/
theorem inf_clamp_real {ι : Type*} [Fintype ι] [Nonempty ι] (f : ι → EReal) (hf : ∀ i, ∃ r : ℝ, f i = (r : EReal)) :
    ∃ r : ℝ, (univ.inf fun i => max (f i) 0) = (r : EReal) := by
  choose g hg using hf
  refine ⟨univ.inf' univ_nonempty fun i => max (g i) 0, ?_⟩
  have : (fun i => max (f i) 0) = fun i => ((max (g i) 0 : ℝ) : EReal) := funext fun i => by
    rw [hg i]
    have h := (EReal.coe_strictMono.monotone.map_max (a := g i) (b := 0)).symm
    simpa using h
  rw [this]
  refine le_antisymm ?_ ?_
  · obtain ⟨i, -, hi⟩ := Finset.exists_mem_eq_inf' univ_nonempty (fun i => max (g i) 0)
    rw [hi]; exact Finset.inf_le (Finset.mem_univ i)
  · refine Finset.le_inf fun i _ => ?_
    exact EReal.coe_le_coe_iff.mpr (Finset.inf'_le _ (Finset.mem_univ i))

theorem near1_real {x y : Cloud} (hx : IsRealCloud x) (hy : IsRealCloud y) (i : (⟨2, ![4, 4096]⟩ : Shape).Idx) :
    ∃ r : ℝ, near1 x y i = (r : EReal) :=
  inf_clamp_real _ fun q => refD_real hx hy (i 0) (i 1) q

theorem near2_real {x y : Cloud} (hx : IsRealCloud x) (hy : IsRealCloud y) (i : (⟨2, ![4, 4096]⟩ : Shape).Idx) :
    ∃ r : ℝ, near2 x y i = (r : EReal) :=
  inf_clamp_real _ fun n => refD_real hx hy (i 0) n (i 1)

/-- The kernel's total — zero plus the sum over the batches of each batch's share — is `meanDist`. -/
theorem partK_cloud {x y : Cloud} (hx : IsRealCloud x) (hy : IsRealCloud y) :
    (0 : EReal) + ∑ b : Fin 4, partK (kX x b) (kc x b 0) (kc x b 1) (kc x b 2) (kr y b 0) (kr y b 1) (kr y b 2)
        ((-2 : ℝ) : EReal) ((1 : ℝ) : EReal) 0 (((1 : ℝ) / 16384 : ℝ) : EReal)
      = meanDist x y := by
  choose R hR using fun b : Fin 4 => fun n : Fin 4096 => near1_real hx hy (ix2 b n)
  choose C hC using fun b : Fin 4 => fun q : Fin 4096 => near2_real hx hy (ix2 b q)
  unfold partK meanDist
  simp only [rowMinK_cloud hx hy, colMinK_cloud hx hy, hR, hC]
  exact mean_law R C

end Cert.Chamfer

end
-- ==== Proof.LibSumIdx3.lean ====
/-
  A sum over the index set of a rank-one array is the sum over its one coordinate, and a sum over the index set
  of a rank-three array is the triple sum over its coordinates.
-/
import Idealize.ShloMosaic.Lib.ValueIdx

noncomputable section

open scoped BigOperators

namespace Cert.SumIdx3

open Idealize.ShloMosaic Idealize.ShloMosaic.ValueIdx

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-three index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3

end
-- ==== Proof.Host.lean ====
/-
  The kernel program's three results as functions of the two clouds. Before the region the host cuts the first
  cloud into its three coordinate columns and the second into its three coordinate rows (a slice; a slice, a
  reshape and a broadcast), so at batch `b` the arrays the region finds are the clouds' coordinates. After the
  region the host drops the unit axis of the two nearest-distance arrays and adds up the four batches' shares of the
  mean from zero. With Array.lean's three output arrays and Target.lean's laws — for real clouds — the results
  are `meanDist`, `near1`, `near2`.
-/
import proofs.«174645_g31980326486603_cont_9to1_2083_17_alg».proof.Proof.Array
import proofs.«174645_g31980326486603_cont_9to1_2083_17_alg».proof.Proof.Target
import proofs.«174645_g31980326486603_cont_9to1_2083_17_alg».proof.Proof.LibSumIdx3
import Idealize.ShloMosaic.Lib.StableHlo.Run

noncomputable section

namespace Cert.Chamfer

open Finset Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The two clouds as launched on core `c`. -/
abbrev cloudX (c : Dev nD) : Cloud := m ((c : Thread nD τ).loc main_arg0)
abbrev cloudY (c : Dev nD) : Cloud := m ((c : Thread nD τ).loc main_arg1)

/-! ## The arrays the region finds -/

theorem V_v0 (c : Dev nD) : (V m c main_v0 : S4x4096x1.Idx → EReal)
    = extractStridedSlice S4x4096x1 ![0, 0, 0] (cloudX m c) Facts₀.slices_S4x4096x3_S4x4096x1_0_0_0 := by
  show StableHlo.after hostOps0 (fun b => m (c, b)) (Proc.devRef .tc main_v0) = _
  after_results <;> rfl
theorem V_v1 (c : Dev nD) : (V m c main_v1 : S4x4096x1.Idx → EReal)
    = extractStridedSlice S4x4096x1 ![0, 0, 1] (cloudX m c) Facts₀.slices_S4x4096x3_S4x4096x1_0_0_1 := by
  show StableHlo.after hostOps0 (fun b => m (c, b)) (Proc.devRef .tc main_v1) = _
  after_results <;> rfl
theorem V_v2 (c : Dev nD) : (V m c main_v2 : S4x4096x1.Idx → EReal)
    = extractStridedSlice S4x4096x1 ![0, 0, 2] (cloudX m c) Facts₀.slices_S4x4096x3_S4x4096x1_0_0_2 := by
  show StableHlo.after hostOps0 (fun b => m (c, b)) (Proc.devRef .tc main_v2) = _
  after_results <;> rfl
theorem V_v5 (c : Dev nD) : (V m c main_v5 : S4x1x4096.Idx → EReal)
    = broadcastInDim S4x1x4096 ![0, 2] Facts₀.bcast_S4x4096_S4x1x4096_0_2
        (shapeCast S4x4096 (extractStridedSlice S4x4096x1 ![0, 0, 0] (cloudY m c) Facts₀.slices_S4x4096x3_S4x4096x1_0_0_0)
          Facts₀.shapeCasts_S4x4096x1_S4x4096) := by
  show StableHlo.after hostOps0 (fun b => m (c, b)) (Proc.devRef .tc main_v5) = _
  after_results <;> rfl
theorem V_v8 (c : Dev nD) : (V m c main_v8 : S4x1x4096.Idx → EReal)
    = broadcastInDim S4x1x4096 ![0, 2] Facts₀.bcast_S4x4096_S4x1x4096_0_2
        (shapeCast S4x4096 (extractStridedSlice S4x4096x1 ![0, 0, 1] (cloudY m c) Facts₀.slices_S4x4096x3_S4x4096x1_0_0_1)
          Facts₀.shapeCasts_S4x4096x1_S4x4096) := by
  show StableHlo.after hostOps0 (fun b => m (c, b)) (Proc.devRef .tc main_v8) = _
  after_results <;> rfl
theorem V_v11 (c : Dev nD) : (V m c main_v11 : S4x1x4096.Idx → EReal)
    = broadcastInDim S4x1x4096 ![0, 2] Facts₀.bcast_S4x4096_S4x1x4096_0_2
        (shapeCast S4x4096 (extractStridedSlice S4x4096x1 ![0, 0, 2] (cloudY m c) Facts₀.slices_S4x4096x3_S4x4096x1_0_0_2)
          Facts₀.shapeCasts_S4x4096x1_S4x4096) := by
  show StableHlo.after hostOps0 (fun b => m (c, b)) (Proc.devRef .tc main_v11) = _
  after_results <;> rfl

/-- Column `k` cut out of a cloud, read at (b, n, ·). -/
theorem col_apply (x : Cloud) (k : Fin 3) (h : S4x4096x3.Slices ![0, 0, k.val] S4x4096x1) (b : Fin 4) (n : Fin 4096) :
    extractStridedSlice S4x4096x1 ![0, 0, k.val] x h (ix3 b n (0 : Fin 1)) = x (ix3 b n k) :=
  extractStridedSlice_apply _ x h (ix3 b n (0 : Fin 1)) (ix3 b n k) (fun a => by
    match a with
    | ⟨0, _⟩ => show b.val = 0 + b.val; omega
    | ⟨1, _⟩ => show n.val = 0 + n.val; omega
    | ⟨2, _⟩ => show k.val = k.val + 0; omega)

/-- Column `k` cut out of a cloud, flattened and laid as a row, read at (b, ·, q). -/
theorem row_apply (y : Cloud) (k : Fin 3) (h : S4x4096x3.Slices ![0, 0, k.val] S4x4096x1)
    (hc : S4x4096x1.ShapeCasts S4x4096) (hb : S4x4096.BroadcastsInDim S4x1x4096 (![0, 2] : Fin 2 → Fin S4x1x4096.rank))
    (b : Fin 4) (q : Fin 4096) :
    broadcastInDim S4x1x4096 ![0, 2] hb (shapeCast S4x4096 (extractStridedSlice S4x4096x1 ![0, 0, k.val] y h) hc)
        (ix3 b (0 : Fin 1) q) = y (ix3 b q k) := by
  refine (broadcastInDim_apply _ hb _ (ix3 b (0 : Fin 1) q) (ix2 b q) (fun a => by
    match a with
    | ⟨0, _⟩ => show b.val = if (4 : Nat) = 1 then 0 else b.val; rw [if_neg (by decide)]
    | ⟨1, _⟩ => show q.val = if (4096 : Nat) = 1 then 0 else q.val; rw [if_neg (by decide)])).trans ?_
  refine (shapeCast_apply _ hc (ix2 b q) (ix3 b q (0 : Fin 1)) (by
    rw [Shape.rowMajor_val_three, Shape.rowMajor_val_two]
    show (b.val * 4096 + q.val) * 1 + 0 = b.val * 4096 + q.val; omega)).trans ?_
  exact col_apply y k h b q

/-- At batch `b` the seven arrays are the clouds' coordinates. -/
theorem arrays_eq (c : Dev nD) (b : Fin 4) :
    aX (V m c main_arg0) b = kX (cloudX m c) b ∧ acol (V m c main_v0) b = kc (cloudX m c) b 0
    ∧ acol (V m c main_v1) b = kc (cloudX m c) b 1 ∧ acol (V m c main_v2) b = kc (cloudX m c) b 2
    ∧ arow (V m c main_v5) b = kr (cloudY m c) b 0 ∧ arow (V m c main_v8) b = kr (cloudY m c) b 1
    ∧ arow (V m c main_v11) b = kr (cloudY m c) b 2 := by
  refine ⟨?_, ?_, ?_, ?_, ?_, ?_, ?_⟩
  · unfold aX; rw [V_main_arg0]
  · unfold acol; rw [V_v0]; exact funext fun n => col_apply _ 0 _ b n
  · unfold acol; rw [V_v1]; exact funext fun n => col_apply _ 1 _ b n
  · unfold acol; rw [V_v2]; exact funext fun n => col_apply _ 2 _ b n
  · unfold arow; rw [V_v5]; exact funext fun q => row_apply _ 0 _ _ _ b q
  · unfold arow; rw [V_v8]; exact funext fun q => row_apply _ 1 _ _ _ b q
  · unfold arow; rw [V_v11]; exact funext fun q => row_apply _ 2 _ _ _ b q

/-! ## The three output arrays, for real clouds -/

section Real
variable (c : Dev nD) (hx : IsRealCloud (cloudX m c)) (hy : IsRealCloud (cloudY m c))
include hx hy

theorem G7_apply (b : Fin 4) (n : Fin 4096) :
    G7 (V m c main_arg0) (V m c main_v0) (V m c main_v1) (V m c main_v2) (V m c main_v5) (V m c main_v8) (V m c main_v11) (ix3 b n (0 : Fin 1)) = near1 (cloudX m c) (cloudY m c) (ix2 b n) := by
  obtain ⟨h0, h1, h2, h3, h4, h5, h6⟩ := arrays_eq m c b
  show rowMinK (aX (V m c main_arg0) b) (acol (V m c main_v0) b) (acol (V m c main_v1) b) (acol (V m c main_v2) b) (arow (V m c main_v5) b) (arow (V m c main_v8) b) (arow (V m c main_v11) b) wm2 wone wzero n = _
  rw [h0, h1, h2, h3, h4, h5, h6, show wm2 = ((-2 : ℝ) : EReal) from word_neg_two,
    show wone = ((1 : ℝ) : EReal) from word_one, show wzero = (0 : EReal) from Ideal.ofBits_zero_f32]
  exact rowMinK_cloud hx hy b n

theorem G8_apply (b : Fin 4) (q : Fin 4096) :
    G8 (V m c main_arg0) (V m c main_v0) (V m c main_v1) (V m c main_v2) (V m c main_v5) (V m c main_v8) (V m c main_v11) (ix3 b (0 : Fin 1) q) = near2 (cloudX m c) (cloudY m c) (ix2 b q) := by
  obtain ⟨h0, h1, h2, h3, h4, h5, h6⟩ := arrays_eq m c b
  show colMinK (aX (V m c main_arg0) b) (acol (V m c main_v0) b) (acol (V m c main_v1) b) (acol (V m c main_v2) b) (arow (V m c main_v5) b) (arow (V m c main_v8) b) (arow (V m c main_v11) b) wm2 wone wzero q = _
  rw [h0, h1, h2, h3, h4, h5, h6, show wm2 = ((-2 : ℝ) : EReal) from word_neg_two,
    show wone = ((1 : ℝ) : EReal) from word_one, show wzero = (0 : EReal) from Ideal.ofBits_zero_f32]
  exact colMinK_cloud hx hy b q

theorem G9_apply (b : Fin 4) :
    G9 (V m c main_arg0) (V m c main_v0) (V m c main_v1) (V m c main_v2) (V m c main_v5) (V m c main_v8) (V m c main_v11) (ix3 b (0 : Fin 1) (0 : Fin 1))
      = partK (kX (cloudX m c) b) (kc (cloudX m c) b 0) (kc (cloudX m c) b 1) (kc (cloudX m c) b 2)
          (kr (cloudY m c) b 0) (kr (cloudY m c) b 1) (kr (cloudY m c) b 2)
          ((-2 : ℝ) : EReal) ((1 : ℝ) : EReal) 0 (((1 : ℝ) / 16384 : ℝ) : EReal) := by
  obtain ⟨h0, h1, h2, h3, h4, h5, h6⟩ := arrays_eq m c b
  show partK (aX (V m c main_arg0) b) (acol (V m c main_v0) b) (acol (V m c main_v1) b) (acol (V m c main_v2) b) (arow (V m c main_v5) b) (arow (V m c main_v8) b) (arow (V m c main_v11) b) wm2 wone wzero wscale = _
  rw [h0, h1, h2, h3, h4, h5, h6, show wm2 = ((-2 : ℝ) : EReal) from word_neg_two,
    show wone = ((1 : ℝ) : EReal) from word_one, show wzero = (0 : EReal) from Ideal.ofBits_zero_f32,
    show wscale = (((1 : ℝ) / 16384 : ℝ) : EReal) from word_scale]

end Real

/-! ## The host operations after the region -/

/-- The host's sum of a [4,1,1] array from zero. -/
theorem total_apply (g : S4x1x1.Idx → EReal) (i : S_.Idx) :
    Host.reduceAdd (F := Ideal) g (constant (F := Ideal) S_ .f32 0x00000000#32) Facts₀.reducesTo_S4x1x1_S_d0_1_2 Facts₀.h_S_ i
      = 0 + ∑ b : Fin 4, g (ix3 b (0 : Fin 1) (0 : Fin 1)) := by
  simp only [Host.reduceAdd, Ideal.hostReduceAdd_def]
  rw [Ideal.hostReduceAdd_total Facts₀.reducesTo_S4x1x1_S_d0_1_2 (fun b => b.elim0) g _ i, Cert.SumIdx3.sum_idx3]
  simp only [Fin.sum_univ_one, constant_apply, Ideal.ofBits_zero_f32]

section Tail
variable (c : Dev nD) (hx : IsRealCloud (cloudX m c)) (hy : IsRealCloud (cloudY m c))
include hx hy

/-- The kernel program's second result. -/
theorem kernel_near1 :
    (Pipeline.afterTail₀ cfgs (dats m) 0 (V0 m) [hostOps1] c main_v14 : S4x4096.Idx → EReal)
      = near1 (cloudX m c) (cloudY m c) := by
  have hw : Pipeline.withArrays (cfgs 0).spec c (V0 m c) (fun w => (dats m 0 c).arrAt w (cfgs 0).N) (Proc.tc.devRef main_v12_0) = G7 (V m c main_arg0) (V m c main_v0) (V m c main_v1) (V m c main_v2) (V m c main_v5) (V m c main_v8) (V m c main_v11) :=
    (Pipeline.withArrays_arr spec0 launch0.win.arr_inj c _ _ 7).trans (final7 m c)
  unfold Pipeline.afterTail₀
  show StableHlo.after hostOps1 _ (Proc.devRef .tc main_v14) = _
  after_results
  rw [hw]
  funext i
  obtain ⟨b, n, rfl⟩ : ∃ (b : Fin 4) (n : Fin 4096), i = ix2 b n := ⟨i 0, i 1, eq_ix2 i⟩
  refine Eq.trans ?_ (G7_apply m c hx hy b n)
  exact shapeCast_apply (G7 (V m c main_arg0) (V m c main_v0) (V m c main_v1) (V m c main_v2) (V m c main_v5) (V m c main_v8) (V m c main_v11)) Facts₀.shapeCasts_S4x4096x1_S4x4096 (ix2 b n) (ix3 b n (0 : Fin 1)) (by
    rw [Shape.rowMajor_val_three, Shape.rowMajor_val_two]
    show (b.val * 4096 + n.val) * 1 + 0 = b.val * 4096 + n.val; omega)

/-- The kernel program's third result. -/
theorem kernel_near2 :
    (Pipeline.afterTail₀ cfgs (dats m) 0 (V0 m) [hostOps1] c main_v15 : S4x4096.Idx → EReal)
      = near2 (cloudX m c) (cloudY m c) := by
  have hw : Pipeline.withArrays (cfgs 0).spec c (V0 m c) (fun w => (dats m 0 c).arrAt w (cfgs 0).N) (Proc.tc.devRef main_v12_1) = G8 (V m c main_arg0) (V m c main_v0) (V m c main_v1) (V m c main_v2) (V m c main_v5) (V m c main_v8) (V m c main_v11) :=
    (Pipeline.withArrays_arr spec0 launch0.win.arr_inj c _ _ 8).trans (final8 m c)
  unfold Pipeline.afterTail₀
  show StableHlo.after hostOps1 _ (Proc.devRef .tc main_v15) = _
  after_results
  rw [hw]
  funext i
  obtain ⟨b, q, rfl⟩ : ∃ (b : Fin 4) (q : Fin 4096), i = ix2 b q := ⟨i 0, i 1, eq_ix2 i⟩
  refine Eq.trans ?_ (G8_apply m c hx hy b q)
  exact shapeCast_apply (G8 (V m c main_arg0) (V m c main_v0) (V m c main_v1) (V m c main_v2) (V m c main_v5) (V m c main_v8) (V m c main_v11)) Facts₀.shapeCasts_S4x1x4096_S4x4096 (ix2 b q) (ix3 b (0 : Fin 1) q) (by
    rw [Shape.rowMajor_val_three, Shape.rowMajor_val_two]
    show (b.val * 1 + 0) * 4096 + q.val = b.val * 4096 + q.val; omega)

/-- The kernel program's first result. -/
theorem kernel_mean :
    (Pipeline.afterTail₀ cfgs (dats m) 0 (V0 m) [hostOps1] c main_v13 : S_.Idx → EReal)
      = fun _ => meanDist (cloudX m c) (cloudY m c) := by
  have hw : Pipeline.withArrays (cfgs 0).spec c (V0 m c) (fun w => (dats m 0 c).arrAt w (cfgs 0).N) (Proc.tc.devRef main_v12_2) = G9 (V m c main_arg0) (V m c main_v0) (V m c main_v1) (V m c main_v2) (V m c main_v5) (V m c main_v8) (V m c main_v11) :=
    (Pipeline.withArrays_arr spec0 launch0.win.arr_inj c _ _ 9).trans (final9 m c)
  unfold Pipeline.afterTail₀
  show StableHlo.after hostOps1 _ (Proc.devRef .tc main_v13) = _
  after_results
  rw [hw]
  funext i
  rw [total_apply]
  simp only [G9_apply m c hx hy]
  exact partK_cloud hx hy

end Tail

end Cert.Chamfer

end
-- ==== Proof.Ref.lean ====
/-
  The reference program's three results are the target functions of Target.lean. Its stages are read one at a
  time with the generated read-at-an-index lemmas: at (b, n, q) the clamped entry is max (refD b n q) 0 — the two
  squared norms are sums from zero over the three coordinates, the inner product the contraction over them —; the two
  minimum-reductions, along the last and along the middle axis, are infima because they start from +∞; and the
  scalar is the two total sums, each from zero, divided by 16384 and added.
-/
import proofs.«174645_g31980326486603_cont_9to1_2083_17_alg».proof.Proof.Gen.ReferenceIdeal.Read
import proofs.«174645_g31980326486603_cont_9to1_2083_17_alg».proof.Proof.Target
import Idealize.ShloMosaic.PureOps.Reduce

noncomputable section

namespace Cert.Chamfer

open Finset Idealize.ShloMosaic Idealize.ShloMosaic.ValueIdx Cert.ReferenceIdeal Cert.ReferenceIdeal.Read

/-- The host's minimum-reduction over one axis is the running minimum, from the initial value, over that axis. -/
theorem hostMin_single {s t u : Shape} {a : Fin s.rank} (x : s.Idx → EReal) (init : u.Idx → EReal)
    (h' : s.ReducesTo [a] t) (h : s.Reduces [a] t) (hu : 0 < u.numel) (j : t.Idx) :
    Host.reduce (FloatOps.minimumf (F := Ideal) (φ := .f32)) x init h' hu j
      = (Finset.univ : Finset (Fin (s.size a))).fold min (init (Shape.Idx.first hu)) (x ∘ h.lift j) :=
  Host.reduce_eq_fold_single _ x init h' h hu j

/-- Over entry (b, n) of the result, position q of the last axis is (b, n, q). -/
theorem lift_last (h : Shape.Reduces ⟨3, ![4, 4096, 4096]⟩ [2] ⟨2, ![4, 4096]⟩) (b : Fin 4) (n q : Fin 4096) :
    h.lift (ix2 b n) q = ix3 b n q :=
  funext fun ax => Fin.ext (by match ax with | ⟨0, _⟩ => rfl | ⟨1, _⟩ => rfl | ⟨2, _⟩ => rfl)

/-- Over entry (b, q) of the result, position n of the middle axis is (b, n, q). -/
theorem lift_mid (h : Shape.Reduces ⟨3, ![4, 4096, 4096]⟩ [1] ⟨2, ![4, 4096]⟩) (b : Fin 4) (q n : Fin 4096) :
    h.lift (ix2 b q) n = ix3 b n q :=
  funext fun ax => Fin.ext (by match ax with | ⟨0, _⟩ => rfl | ⟨1, _⟩ => rfl | ⟨2, _⟩ => rfl)

/-- The clamped distance array at (b, n, q). -/
theorem clamped_apply (x0 x1 : Cloud) (b : Fin 4) (n q : Fin 4096) :
    val_main_v14 (F := Ideal) x0 x1 (ix3 b n q) = max (refD x0 x1 b n q) 0 := by
  rw [val_main_v14_apply, val_main_v13_apply, val_main_cst_2_apply, val_main_v12_apply, val_main_v9_apply,
    val_main_v11_apply, val_main_v10_apply, val_main_cst_1_apply, val_main_v4_apply, val_main_v7_apply,
    val_main_v5_apply, val_main_v1_apply, val_main_v8_apply, val_main_v6_apply, val_main_v3_apply,
    val_main_cst_apply, val_main_cst_0_apply]
  have e1 : ∀ k : Fin 3, lidx_main_v4 (ix3 b n q) k = ix3 b n k := fun k =>
    funext fun a => Fin.ext (by match a with | ⟨0, _⟩ => rfl | ⟨1, _⟩ => rfl | ⟨2, _⟩ => rfl)
  have e2 : ∀ k : Fin 3, ridx_main_v4 (ix3 b n q) k = ix3 b q k := fun k =>
    funext fun a => Fin.ext (by match a with | ⟨0, _⟩ => rfl | ⟨1, _⟩ => rfl | ⟨2, _⟩ => rfl)
  have e3 : ∀ k : Fin 3, idx_main_v1 (idx_main_v5 (idx_main_v7 (ix3 b n q))) k = ix3 b n k := fun k =>
    funext fun a => Fin.ext (by match a with | ⟨0, _⟩ => rfl | ⟨1, _⟩ => rfl | ⟨2, _⟩ => rfl)
  have e4 : ∀ k : Fin 3, idx_main_v3 (idx_main_v6 (idx_main_v8 (ix3 b n q))) k = ix3 b q k := fun k =>
    funext fun a => Fin.ext (by match a with | ⟨0, _⟩ => rfl | ⟨1, _⟩ => rfl | ⟨2, _⟩ => rfl)
  have s1 : ∑ k : Fin 3, val_main_v0 (F := Ideal) x0 (idx_main_v1 (idx_main_v5 (idx_main_v7 (ix3 b n q))) k)
      = ∑ k : Fin 3, x0 (ix3 b n k) * x0 (ix3 b n k) :=
    Finset.sum_congr rfl fun k _ => by rw [e3 k]; rfl
  have s2 : ∑ k : Fin 3, val_main_v2 (F := Ideal) x1 (idx_main_v3 (idx_main_v6 (idx_main_v8 (ix3 b n q))) k)
      = ∑ k : Fin 3, x1 (ix3 b q k) * x1 (ix3 b q k) :=
    Finset.sum_congr rfl fun k _ => by rw [e4 k]; rfl
  have s3 : ∑ k : Fin 3, x0 (lidx_main_v4 (ix3 b n q) k) * x1 (ridx_main_v4 (ix3 b n q) k)
      = ∑ k : Fin 3, x0 (ix3 b n k) * x1 (ix3 b q k) :=
    Finset.sum_congr rfl fun k _ => by rw [e1 k, e2 k]
  rw [s1, s2, s3]
  rw [Ideal.maximumf_def, Ideal.subf_def, Ideal.addf_def, Ideal.mulf_def,
    Ideal.ofBits_def, Ideal.ofBits_def, Ideal.ofBits_zero_f32, word_two]
  rfl

/-- The reference's first nearest-distance array. -/
theorem ref_near1 (x0 x1 : Cloud) : val_main_v15 (F := Ideal) x0 x1 = near1 x0 x1 := by
  funext i
  obtain ⟨b, n, rfl⟩ : ∃ (b : Fin 4) (n : Fin 4096), i = ix2 b n := ⟨i 0, i 1, eq_ix2 i⟩
  unfold val_main_v15
  refine (hostMin_single _ _ _ (by decide) _ (ix2 b n)).trans ?_
  rw [val_main_cst_3_apply, Ideal.ofBits_def, word_inf, fold_min_top]
  unfold near1
  refine congrArg (Finset.inf Finset.univ) (funext fun q => ?_)
  exact (congrArg (val_main_v14 (F := Ideal) x0 x1) (lift_last _ b n q)).trans (clamped_apply x0 x1 b n q)

/-- The reference's second nearest-distance array. -/
theorem ref_near2 (x0 x1 : Cloud) : val_main_v16 (F := Ideal) x0 x1 = near2 x0 x1 := by
  funext i
  obtain ⟨b, q, rfl⟩ : ∃ (b : Fin 4) (q : Fin 4096), i = ix2 b q := ⟨i 0, i 1, eq_ix2 i⟩
  unfold val_main_v16
  refine (hostMin_single _ _ _ (by decide) _ (ix2 b q)).trans ?_
  rw [val_main_cst_4_apply, Ideal.ofBits_def, word_inf, fold_min_top]
  unfold near2
  refine congrArg (Finset.inf Finset.univ) (funext fun n => ?_)
  exact (congrArg (val_main_v14 (F := Ideal) x0 x1) (lift_mid _ b q n)).trans (clamped_apply x0 x1 b n q)

/-- The reference's scalar. -/
theorem ref_mean (x0 x1 : Cloud) (i : S_.Idx) : val_main_v21 (F := Ideal) x0 x1 i = meanDist x0 x1 := by
  rw [val_main_v21_apply, val_main_v18_apply, val_main_v20_apply, val_main_v17_apply, val_main_v19_apply,
    val_main_cst_6_apply, val_main_cst_8_apply, val_main_cst_5_apply, val_main_cst_7_apply, ref_near1, ref_near2,
    sum_idx2, sum_idx2]
  rw [Ideal.addf_def, Ideal.hostDivf_def, Ideal.hostDivf_def, Ideal.ofBits_def, Ideal.ofBits_def,
    Ideal.ofBits_zero_f32, word_16384]
  rfl

end Cert.Chamfer

end
-- ==== Proof.Finite.lean ====
/-
  From the precondition to real numbers. `finite_inputs` says, of each cloud, that every entry's absolute value
  is below +∞ (a `jnp.all` of the comparison) and takes the conjunction of the two. An extended real whose
  absolute value max x (−x) is below +∞ is neither +∞ nor −∞, so it is a real number.
-/
import proofs.«174645_g31980326486603_cont_9to1_2083_17_alg».proof.Pre_finite_inputs
import proofs.«174645_g31980326486603_cont_9to1_2083_17_alg».proof.Proof.Gen.Pre_finite_inputs
import proofs.«174645_g31980326486603_cont_9to1_2083_17_alg».proof.Proof.Target
import Idealize.ShloMosaic.Lib.ReduceAll
import Idealize.ShloMosaic.Lib.ValueIdx
import Idealize.ShloMosaic.Lib.Pipeline.Value

noncomputable section

namespace Cert.Chamfer

open Idealize.ShloMosaic Idealize.ShloMosaic.ValueIdx

instance : Subsingleton Cert.Pre_finite_inputs.S_.Idx := ⟨fun a b => funext fun d => d.elim0⟩

/-- An extended real whose absolute value compares below +∞ is a real number. -/
theorem real_of_abs_lt_top (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

/-- One cloud's `jnp.all(|x| < ∞)` being 1 makes the cloud real. -/
theorem real_of_all (x : Cloud)
    (h : Host.reduce IntOp.andi
        (cmpf .olt (Host.absf (F := Ideal) (s := Cert.Pre_finite_inputs.S4x4096x3) (φ := .f32) x)
          (broadcastInDim Cert.Pre_finite_inputs.S4x4096x3 ![] Cert.Pre_finite_inputs.Facts.bcast_S_S4x4096x3
            (constant (F := Ideal) Cert.Pre_finite_inputs.S_ .f32 0x7F800000#32)))
        (constantI Cert.Pre_finite_inputs.S_ 1 1#1) Cert.Pre_finite_inputs.Facts.reducesTo_S4x4096x3_S_d0_1_2
        Cert.Pre_finite_inputs.Facts.h_S_ ix0 = 1#1) : IsRealCloud x := by
  intro i
  have hi := Host.reduce_andi_all _ _ _ _ _ h i
  rw [cmpf_apply] at hi
  refine real_of_abs_lt_top (x i) ?_
  have hb : broadcastInDim Cert.Pre_finite_inputs.S4x4096x3 ![] Cert.Pre_finite_inputs.Facts.bcast_S_S4x4096x3
      (constant (F := Ideal) Cert.Pre_finite_inputs.S_ .f32 0x7F800000#32) i = ⊤ := by
    refine (broadcastInDim_apply _ _ _ i ix0 (fun a => a.elim0)).trans ?_
    exact word_inf
  rw [hb] at hi
  exact hi

/-- The precondition makes both clouds real. -/
theorem real_of_pre (x y : Cloud) (h : Cert.Pre_finite_inputs.fn (F := Ideal) x y = fun _ => 1#1) :
    IsRealCloud x ∧ IsRealCloud y := by
  have h0 := congrFun h ix0
  unfold Cert.Pre_finite_inputs.fn at h0
  dsimp only at h0
  obtain ⟨ha, hb⟩ := IntOp.andi_eq_one.mp h0
  exact ⟨real_of_all x ha, real_of_all y hb⟩

end Cert.Chamfer

end
-- ==== Proof.lean ====
/-
  Chamfer distance between two batches of point clouds `x, y : [4, 4096, 3]`: for every point its nearest
  clamped squared distance to the other cloud (`near1`, `near2`), and the sum of the two means (`meanDist`).

  The reference forms the whole [4, 4096, 4096] array of (|x|² + |y|²) − 2⟨x,y⟩, clamps it at zero and reduces
  it twice. The kernel never forms it: per batch it gets the squared distance straight out of ONE product of a
  4096×9 by a 9×4096 operand — the row (−2x₀, −2x₁, −2x₂, 1, 1, 1, s₁, s₁−s₁, (s₁−s₁)−(s₁−s₁)) against the
  column (y₀, y₁, y₂, s₂, s₂−s₂, (s₂−s₂)−(s₂−s₂), 1, 1, 1), the residual terms being what is left of the squared
  norms after two roundings to a narrower format, which at the exact values is nothing — in four runs of 1024 columns,
  takes the minima first and clamps afterwards, scales each batch's two sums by 2⁻¹⁴ and lets the host add the four
  batches up. The two agree for FINITE inputs, and finiteness is used exactly once: s − s = 0 needs s real
  (Laws.lean `nine_terms`); the rest is that `max · 0` commutes with minima, that a minimum over 4096 columns is
  the minimum of four minima over 1024, and that 2⁻¹⁴ is exactly 1/16384, so scaling the parts is dividing the totals
  (distributivity over real summands).

  The three frames are the generated ones (the reference's is its generated run with the results dropped); each
  conjunct of `preserves` is the ideal pass's rule for a rounding to a narrower format and back.
-/
import proofs.«174645_g31980326486603_cont_9to1_2083_17_alg».proof.Defs
import proofs.«174645_g31980326486603_cont_9to1_2083_17_alg».proof.Proof.Gen.Kernel
import proofs.«174645_g31980326486603_cont_9to1_2083_17_alg».proof.Proof.Gen.Kernel.Skeleton
import proofs.«174645_g31980326486603_cont_9to1_2083_17_alg».proof.Proof.Gen.Kernel.Launch
import proofs.«174645_g31980326486603_cont_9to1_2083_17_alg».proof.Proof.Gen.Kernel.Points
import proofs.«174645_g31980326486603_cont_9to1_2083_17_alg».proof.Proof.Gen.Kernel.Frame
import proofs.«174645_g31980326486603_cont_9to1_2083_17_alg».proof.Proof.Gen.KernelIdeal
import proofs.«174645_g31980326486603_cont_9to1_2083_17_alg».proof.Proof.Gen.KernelIdeal.Skeleton
import proofs.«174645_g31980326486603_cont_9to1_2083_17_alg».proof.Proof.Gen.KernelIdeal.Launch
import proofs.«174645_g31980326486603_cont_9to1_2083_17_alg».proof.Proof.Gen.KernelIdeal.Points
import proofs.«174645_g31980326486603_cont_9to1_2083_17_alg».proof.Proof.Gen.KernelIdeal.Frame
import proofs.«174645_g31980326486603_cont_9to1_2083_17_alg».proof.Proof.Gen.ReferenceIdeal
import proofs.«174645_g31980326486603_cont_9to1_2083_17_alg».proof.Proof.Gen.ReferenceIdeal.Run
import proofs.«174645_g31980326486603_cont_9to1_2083_17_alg».proof.Proof.Gen.ReferenceIdeal.Read
import proofs.«174645_g31980326486603_cont_9to1_2083_17_alg».proof.Proof.Gen.Pre_finite_inputs
import proofs.«174645_g31980326486603_cont_9to1_2083_17_alg».proof.Proof.Host
import proofs.«174645_g31980326486603_cont_9to1_2083_17_alg».proof.Proof.Ref
import proofs.«174645_g31980326486603_cont_9to1_2083_17_alg».proof.Proof.Finite
import Idealize.ShloMosaic.Adequacy
import Idealize.ShloMosaic.Init

noncomputable section

namespace Cert.Proof

open Idealize.ShloMosaic Idealize.ShloMosaic.TcCoe Idealize.SL.Sem Cert.Chamfer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2)
    (Cert.ReferenceIdeal.Value.run (F := Ideal) m ρ)

/-- The ledger's four entries: a rounding to the narrower format and back is the identity at the exact values. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- For finite clouds both programs end at `meanDist`, `near1`, `near2` of the clouds. -/
theorem algebraic : Cert.algebraic_KernelIdeal_ReferenceIdeal := by
  intro m ρ m' ρ' hpre hagree
  refine ⟨fun c => (fun _ => meanDist (cloudX m c) (cloudY m c)), fun c => near1 (cloudX m c) (cloudY m c),
    fun c => near2 (cloudX m c) (cloudY m c), ?_, ?_⟩
  · refine (θ_run Cert.KernelIdeal.defs _ _).mono (fun r h c => ?_) (Cert.KernelIdeal.Gen.run_main m ρ)
    obtain ⟨hx, hy⟩ := real_of_pre (cloudX m c) (cloudY m c) (hpre c)
    refine ⟨?_, ?_, ?_, ?_, ?_⟩
    · exact ((h c).2 Cert.KernelIdeal.main_v13 (Pipeline.mem_restRefs_of Cert.KernelIdeal.main_v13 (by decide) (by decide))).trans
        (kernel_mean m c hx hy)
    · exact ((h c).2 Cert.KernelIdeal.main_v14 (Pipeline.mem_restRefs_of Cert.KernelIdeal.main_v14 (by decide) (by decide))).trans
        (kernel_near1 m c hx hy)
    · exact ((h c).2 Cert.KernelIdeal.main_v15 (Pipeline.mem_restRefs_of Cert.KernelIdeal.main_v15 (by decide) (by decide))).trans
        (kernel_near2 m c hx hy)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ?_)
      (Cert.ReferenceIdeal.Value.run (F := Ideal) m' ρ')
    obtain ⟨h21, h15, h16, ha0, ha1⟩ := h c
    refine ⟨?_, ?_, ?_, ha0, ha1⟩
    · rw [h21, Cert.ReferenceIdeal.Read.val_main_v21_eq, (hagree c).1, (hagree c).2]
      exact funext fun i => ref_mean _ _ i
    · rw [h15, Cert.ReferenceIdeal.Read.val_main_v15_eq, (hagree c).1, (hagree c).2]
      exact ref_near1 _ _
    · rw [h16, Cert.ReferenceIdeal.Read.val_main_v16_eq, (hagree c).1, (hagree c).2]
      exact ref_near2 _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
